-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S32000x4096 : Shape := ⟨2, ![32000, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_

variable [Facts]

def fn_part1 {F : FTy → Type} [FloatOps F] (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  main_v18

def fn {F : FTy → Type} [FloatOps F] (main_arg0 : FVec F S2048x4096 .f32) (main_arg1 : FVec F S2048x4096 .f32) (main_arg2 : FVec F S32000x4096 .f32) (main_arg3 : FVec F S32000x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S32000x4096 .f32 := Host.absf main_arg2
  let main_cst_2 : FVec F S_ .f32 := constant S_ .f32 0x7F800000#32
  let main_v10 : FVec F S32000x4096 .f32 := broadcastInDim S32000x4096 ![] bcast_S_S32000x4096 main_cst_2
  let main_v11 : IVec S32000x4096 1 := cmpf .olt main_v9 main_v10
  let main_c_3 : IVec S_ 1 := constantI S_ 1 1#1
  let main_v12 : IVec S_ 1 := (fun x v => Host.reduce IntOp.andi x v reducesTo_S32000x4096_S_d0_1 h_S_) main_v11 main_c_3
  let main_v13 : IVec S_ 1 := andi main_v8 main_v12
  let main_v14 : FVec F S32000x4096 .f32 := Host.absf main_arg3
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_v13 main_v16
-- ==== Kernel.lean ====
abbrev S2048x4096 : Shape := ⟨2, ![2048, 4096]⟩
abbrev S32000x4096 : Shape := ⟨2, ![32000, 4096]⟩
abbrev S2048x1 : Shape := ⟨2, ![2048, 1]⟩
abbrev S512x4096 : Shape := ⟨2, ![512, 4096]⟩
abbrev S256x4096 : Shape := ⟨2, ![256, 4096]⟩
abbrev S512x1 : Shape := ⟨2, ![512, 1]⟩
abbrev S512x256 : Shape := ⟨2, ![512, 256]⟩
abbrev S512 : Shape := ⟨1, ![512]⟩
abbrev S_ : Shape := ⟨0, ![]⟩

abbrev nBuf : Space → Nat
  | .hbm => 13
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S32000x4096, .f32⟩
  | .hbm, ⟨3, _⟩ => ⟨S32000x4096, .f32⟩
  | .hbm, ⟨4, _⟩ => ⟨S2048x4096, .bf16⟩
  | .hbm, ⟨5, _⟩ => ⟨S2048x4096, .bf16⟩
  | .hbm, ⟨6, _⟩ => ⟨S32000x4096, .bf16⟩
  | .hbm, ⟨7, _⟩ => ⟨S32000x4096, .bf16⟩
  | .hbm, ⟨8, _⟩ => ⟨S2048x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 125], ![false, false]⟩

def k0_cond2 (i : grid0.Coords) : BitVec 1 :=
  let arg1 : BitVec 32 := BitVec.ofNat 32 (i 1).val
  let c124_i32 : BitVec 32 := 124#32
  let v73 : BitVec 1 := Scalar.cmpi .eq arg1 c124_i32
  let v74 : BitVec 32 := Scalar.extui v73
  let c0_i32_43 : BitVec 32 := 0#32
  let v75 : BitVec 1 := Scalar.cmpi .ne v74 c0_i32_43
  v75

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S512x256_S512 : S512x256.Reduces [1] S512
  shapeCasts_S512_S512x1 : S512.ShapeCasts S512x1
  broadcasts_S512x1_S512x256 : S512x1.Broadcasts S512x256
  reducesTo_S2048x1_S_d0_1 : S2048x1.ReducesTo [0, 1] S_
  h_S_ : 0 < S_.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .bf16 = 32 ∨ (Rect.block (s := S2048x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S2048x4096.size a
  hwx0_1 : ∀ i : grid0.Coords, EltTy.bits .bf16 = 32 ∨ (Rect.block (s := S2048x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S32000x4096.size a
  hwx0_2 : ∀ i : grid0.Coords, EltTy.bits .bf16 = 32 ∨ (Rect.block (s := S32000x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S32000x4096.size a
  hwx0_3 : ∀ i : grid0.Coords, EltTy.bits .bf16 = 32 ∨ (Rect.block (s := S32000x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .f32 = 32 ∨ (Rect.block (s := S2048x1) S512x1.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x4096 : Shape := ⟨2, ![2048, 4096]⟩
abbrev S32000x4096 : Shape := ⟨2, ![32000, 4096]⟩
abbrev S2048x32000 : Shape := ⟨2, ![2048, 32000]⟩
abbrev S_ : Shape := ⟨0, ![]⟩
abbrev S2048 : Shape := ⟨1, ![2048]⟩
abbrev S2048x1 : Shape := ⟨2, ![2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S32000x4096, .f32⟩
  | .hbm, ⟨3, _⟩ => ⟨S32000x4096, .f32⟩
  | .hbm, ⟨4, _⟩ => ⟨S2048x32000, .f32⟩
  | .hbm, ⟨5, _⟩ => ⟨S2048x32000, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x32000, .f32⟩
  | .hbm, ⟨13, _⟩ => ⟨S2048x32000, .f32⟩
  | .hbm, ⟨14, _⟩ => ⟨S2048x32000, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x1, .f32⟩
  | .hbm, ⟨19, _⟩ => ⟨S2048x32000, .f32⟩
  | .hbm, ⟨20, _⟩ => ⟨S2048x32000, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048x1, .f32⟩
  | .hbm, ⟨27, _⟩ => ⟨S2048x32000, .f32⟩
  | .hbm, ⟨28, _⟩ => ⟨S2048x32000, .f32⟩
  | .hbm, ⟨29, _⟩ => ⟨S2048x32000, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x32000, .f32⟩
  | .hbm, ⟨35, _⟩ => ⟨S2048x32000, .f32⟩
  | .hbm, ⟨36, _⟩ => ⟨S2048x32000, .f32⟩
  | .hbm, ⟨37, _⟩ => ⟨S2048x32000, .f32⟩
  | .hbm, ⟨38, _⟩ => ⟨S2048x32000, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v2 : Ref sig .tc := ⟨.hbm, 20, rfl⟩
abbrev main_call1_cst : Ref sig .tc := ⟨.hbm, 21, rfl⟩
abbrev main_call1_v0 : Ref sig .tc := ⟨.hbm, 22, rfl⟩
abbrev main_call1_cst_0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_cst_1 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩

abbrev nD : Nat := 1
abbrev τ : Topo := Topo.v7x

variable {F : FTy → Type} [FloatOps F]

class Facts₀ : Prop where
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  reducesTo_S2048x32000_S_d0_1 : S2048x32000.ReducesTo [0, 1] S_
  dot_S2048x4096_S32000x4096_S2048x32000_1_1_0_0_n_n_wf : DotDims.WF S2048x4096 S32000x4096 S2048x32000 [1] [1] [0] [0] [] []

variable [Facts₀]

def dot_S2048x4096_S32000x4096_S2048x32000_1_1_0_0_n_n : DotDims S2048x4096 S32000x4096 S2048x32000 where
  lhsContracting := [1]
  rhsContracting := [1]
  lhsNonContracting := [0]
  rhsNonContracting := [0]
  lhsBatch := []
  rhsBatch := []
  wf := dot_S2048x4096_S32000x4096_S2048x32000_1_1_0_0_n_n_wf

class Facts : Prop extends Facts₀ where

variable [Facts]
-- ==== Proof.KCases.lean ====
/-
  What one visit of the kernel's body leaves in each of its six carried buffers and, at a row block's last tile, in its
  output block — as whole-block functions of the blocks it was handed, at any reading of the floats.

  The body loads the four input blocks (student activations x0, teacher activations x1, student weights x2, teacher
  weights x3), forms the two tiles of logits, and replaces each carried block by one stored value:
    new student shift   = max (old shift) (row maxima of the student tile)
    new student sum     = e^{old shift − new shift} · old sum + row sums of e^{tile − new shift}
  and the same for the teacher's shift and sum and for the two teacher-weighted sums. At a row block's FIRST tile the body
  first stores −∞ into the shifts and 0 into the sums and then reads those back, so there the "old" blocks are these
  constants; at its LAST tile it also stores the row losses, computed from the six blocks it has just stored.
-/
import proofs.«176191_j14577119003196_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-! ## The stored values as functions of the blocks -/

/-- The student's tile of logits and the teacher's. -/
def sTile (x0 : Vec F S512x4096 .bf16) (x2 : Vec F S256x4096 .bf16) : FVec F S512x256 .f32 := k0_pay10 x0 x2
def tTile (x1 : Vec F S512x4096 .bf16) (x3 : Vec F S256x4096 .bf16) : FVec F S512x256 .f32 := k0_pay11 x1 x3

/-- The six stored blocks, from the input blocks and the old carried blocks. -/
def nMs (x0 : Vec F S512x4096 .bf16) (x2 : Vec F S256x4096 .bf16) (o0 : Vec F S512x1 .f32) : Vec F S512x1 .f32 :=
  k0_pay14 (k0_pay12 x0 x2 o0)
def nLs (x0 : Vec F S512x4096 .bf16) (x2 : Vec F S256x4096 .bf16) (o0 o1 : Vec F S512x1 .f32) : Vec F S512x1 .f32 :=
  k0_pay13 x0 x2 o0 o0 o1
def nMt (x1 : Vec F S512x4096 .bf16) (x3 : Vec F S256x4096 .bf16) (o2 : Vec F S512x1 .f32) : Vec F S512x1 .f32 :=
  k0_pay2 (k0_pay15 (k0_pay11 x1 x3) o2)
def nLt (x1 : Vec F S512x4096 .bf16) (x3 : Vec F S256x4096 .bf16) (o2 o3 : Vec F S512x1 .f32) : Vec F S512x1 .f32 :=
  k0_pay1 (k0_pay20 (k0_pay11 x1 x3) o2 o2 o3)
def nA1 (x1 : Vec F S512x4096 .bf16) (x3 : Vec F S256x4096 .bf16) (o2 o4 : Vec F S512x1 .f32) : Vec F S512x1 .f32 :=
  k0_pay18 (k0_pay11 x1 x3) o2 o2 o4
def nA2 (x0 x1 : Vec F S512x4096 .bf16) (x2 x3 : Vec F S256x4096 .bf16) (o2 o5 : Vec F S512x1 .f32) : Vec F S512x1 .f32 :=
  k0_pay19 (k0_pay10 x0 x2) (k0_pay11 x1 x3) o2 o2 o5

/-- The row losses stored at a row block's last tile, from the six blocks just stored. -/
def rowOut (ms ls mt lt a1 a2 : Vec F S512x1 .f32) : Vec F S512x1 .f32 := k0_pay3 mt lt ms ls a1 a2 lt

/-- The constants the first tile stores: −∞ into the shifts, 0 into the sums. -/
abbrev negInf : Vec F S512x1 .f32 := k0_pay4
abbrev zeroS : Vec F S512x1 .f32 := k0_pay5
abbrev negInfT : Vec F S512x1 .f32 := k0_pay6
abbrev zeroT : Vec F S512x1 .f32 := k0_pay7
abbrev zeroA1 : Vec F S512x1 .f32 := k0_pay8
abbrev zeroA2 : Vec F S512x1 .f32 := k0_pay9

/-! ## The pieces each case's run found are those values

Every store covers its whole buffer, so a buffer ends at its last store's value and a load after a store reads that
store's value; a load before any store reads the block the body was handed. -/

/-- After the run's named intermediates are opened: whole-buffer stores and loads read through. -/
local macro "piece_tail" : tactic => `(tactic| (
  dsimp only
  sl_unfold_words
  simp only [View.canon_unit_zero (S := S512x1) hz, View.canon_cons_unit_zero (S := S512x1) hz, View.readCov_unit_zero (S := S512x1) _ hz,
    View.readAt_eq_ld, Memref.IsWhole.read_unread, View.ld_unit_zero (S := S512x4096) hz,
    View.ld_unit_zero (S := S256x4096) hz, View.ld_unit_zero (S := S512x1) hz]))

variable (c : Dev nD) (i : grid0.Coords)
  (a2 : Memref sig .tc .vmem S512x4096 .bf16) (h2 : a2.IsWhole) (a3 : Memref sig .tc .vmem S512x4096 .bf16) (h3 : a3.IsWhole)
  (a4 : Memref sig .tc .vmem S256x4096 .bf16) (h4 : a4.IsWhole) (a5 : Memref sig .tc .vmem S256x4096 .bf16) (h5 : a5.IsWhole)
  (a6 : Memref sig .tc .vmem S512x1 .f32) (h6 : a6.IsWhole) (a7 : Memref sig .tc .vmem S512x1 .f32) (h7 : a7.IsWhole)
  (a8 : Memref sig .tc .vmem S512x1 .f32) (h8 : a8.IsWhole) (a9 : Memref sig .tc .vmem S512x1 .f32) (h9 : a9.IsWhole)
  (a10 : Memref sig .tc .vmem S512x1 .f32) (h10 : a10.IsWhole) (a11 : Memref sig .tc .vmem S512x1 .f32) (h11 : a11.IsWhole)
  (a12 : Memref sig .tc .vmem S512x1 .f32) (h12 : a12.IsWhole)
  (x0 x1 : Vec F S512x4096 .bf16) (x2 x3 : Vec F S256x4096 .bf16) (o0 o1 o2 o3 o4 o5 : Vec F S512x1 .f32)

/-! ### A middle tile -/
section B
variable (hc0 : ¬cond0_0 i) (hc1 : ¬cond0_1 i)

theorem B0 : sout0_B_0 c i a2 h2 a3 h3 a4 h4 a5 h5 a6 h6 a7 h7 a8 h8 a9 h9 a10 h10 a11 h11 a12 h12 hc0 hc1 x0 x1 x2 x3 o0 o1 o2 o3 o4 o5 = nMs x0 x2 o0 := by
  unfold sout0_B_0; rw [View.read_writes_eq_canon _ _ _ (scover0_B_0 c i a2 h2 a3 h3 a4 h4 a5 h5 a6 h6 a7 h7 a8 h8 a9 h9 a10 h10 a11 h11 a12 h12 hc0 hc1 x0 x1 x2 x3 o0 o1 o2 o3 o4 o5)]; unfold kernelRun0_B; piece_tail; rfl
theorem B1 : sout0_B_1 c i a2 h2 a3 h3 a4 h4 a5 h5 a6 h6 a7 h7 a8 h8 a9 h9 a10 h10 a11 h11 a12 h12 hc0 hc1 x0 x1 x2 x3 o0 o1 o2 o3 o4 o5 = nLs x0 x2 o0 o1 := by
  unfold sout0_B_1; rw [View.read_writes_eq_canon _ _ _ (scover0_B_1 c i a2 h2 a3 h3 a4 h4 a5 h5 a6 h6 a7 h7 a8 h8 a9 h9 a10 h10 a11 h11 a12 h12 hc0 hc1 x0 x1 x2 x3 o0 o1 o2 o3 o4 o5)]; unfold kernelRun0_B; piece_tail; rfl
theorem B2 : sout0_B_2 c i a2 h2 a3 h3 a4 h4 a5 h5 a6 h6 a7 h7 a8 h8 a9 h9 a10 h10 a11 h11 a12 h12 hc0 hc1 x0 x1 x2 x3 o0 o1 o2 o3 o4 o5 = nMt x1 x3 o2 := by
  unfold sout0_B_2; rw [View.read_writes_eq_canon _ _ _ (scover0_B_2 c i a2 h2 a3 h3 a4 h4 a5 h5 a6 h6 a7 h7 a8 h8 a9 h9 a10 h10 a11 h11 a12 h12 hc0 hc1 x0 x1 x2 x3 o0 o1 o2 o3 o4 o5)]; unfold kernelRun0_B; piece_tail; rfl
theorem B3 : sout0_B_3 c i a2 h2 a3 h3 a4 h4 a5 h5 a6 h6 a7 h7 a8 h8 a9 h9 a10 h10 a11 h11 a12 h12 hc0 hc1 x0 x1 x2 x3 o0 o1 o2 o3 o4 o5 = nLt x1 x3 o2 o3 := by
  unfold sout0_B_3; rw [View.read_writes_eq_canon _ _ _ (scover0_B_3 c i a2 h2 a3 h3 a4 h4 a5 h5 a6 h6 a7 h7 a8 h8 a9 h9 a10 h10 a11 h11 a12 h12 hc0 hc1 x0 x1 x2 x3 o0 o1 o2 o3 o4 o5)]; unfold kernelRun0_B; piece_tail; rfl
theorem B4 : sout0_B_4 c i a2 h2 a3 h3 a4 h4 a5 h5 a6 h6 a7 h7 a8 h8 a9 h9 a10 h10 a11 h11 a12 h12 hc0 hc1 x0 x1 x2 x3 o0 o1 o2 o3 o4 o5 = nA1 x1 x3 o2 o4 := by
  unfold sout0_B_4; rw [View.read_writes_eq_canon _ _ _ (scover0_B_4 c i a2 h2 a3 h3 a4 h4 a5 h5 a6 h6 a7 h7 a8 h8 a9 h9 a10 h10 a11 h11 a12 h12 hc0 hc1 x0 x1 x2 x3 o0 o1 o2 o3 o4 o5)]; unfold kernelRun0_B; piece_tail; rfl
theorem B5 : sout0_B_5 c i a2 h2 a3 h3 a4 h4 a5 h5 a6 h6 a7 h7 a8 h8 a9 h9 a10 h10 a11 h11 a12 h12 hc0 hc1 x0 x1 x2 x3 o0 o1 o2 o3 o4 o5 = nA2 x0 x1 x2 x3 o2 o5 := by
  unfold sout0_B_5; rw [View.read_writes_eq_canon _ _ _ (scover0_B_5 c i a2 h2 a3 h3 a4 h4 a5 h5 a6 h6 a7 h7 a8 h8 a9 h9 a10 h10 a11 h11 a12 h12 hc0 hc1 x0 x1 x2 x3 o0 o1 o2 o3 o4 o5)]; unfold kernelRun0_B; piece_tail; rfl
end B

/-! ### A row block's last tile -/
section C
variable (hc0 : ¬cond0_0 i) (hc1 : cond0_1 i)

theorem C0 : sout0_C_0 c i a2 h2 a3 h3 a4 h4 a5 h5 a6 h6 a7 h7 a8 h8 a9 h9 a10 h10 a11 h11 a12 h12 hc0 hc1 x0 x1 x2 x3 o0 o1 o2 o3 o4 o5 = nMs x0 x2 o0 := by
  unfold sout0_C_0; rw [View.read_writes_eq_canon _ _ _ (scover0_C_0 c i a2 h2 a3 h3 a4 h4 a5 h5 a6 h6 a7 h7 a8 h8 a9 h9 a10 h10 a11 h11 a12 h12 hc0 hc1 x0 x1 x2 x3 o0 o1 o2 o3 o4 o5)]; unfold kernelRun0_C; piece_tail; rfl
theorem C1 : sout0_C_1 c i a2 h2 a3 h3 a4 h4 a5 h5 a6 h6 a7 h7 a8 h8 a9 h9 a10 h10 a11 h11 a12 h12 hc0 hc1 x0 x1 x2 x3 o0 o1 o2 o3 o4 o5 = nLs x0 x2 o0 o1 := by
  unfold sout0_C_1; rw [View.read_writes_eq_canon _ _ _ (scover0_C_1 c i a2 h2 a3 h3 a4 h4 a5 h5 a6 h6 a7 h7 a8 h8 a9 h9 a10 h10 a11 h11 a12 h12 hc0 hc1 x0 x1 x2 x3 o0 o1 o2 o3 o4 o5)]; unfold kernelRun0_C; piece_tail; rfl
theorem C2 : sout0_C_2 c i a2 h2 a3 h3 a4 h4 a5 h5 a6 h6 a7 h7 a8 h8 a9 h9 a10 h10 a11 h11 a12 h12 hc0 hc1 x0 x1 x2 x3 o0 o1 o2 o3 o4 o5 = nMt x1 x3 o2 := by
  unfold sout0_C_2; rw [View.read_writes_eq_canon _ _ _ (scover0_C_2 c i a2 h2 a3 h3 a4 h4 a5 h5 a6 h6 a7 h7 a8 h8 a9 h9 a10 h10 a11 h11 a12 h12 hc0 hc1 x0 x1 x2 x3 o0 o1 o2 o3 o4 o5)]; unfold kernelRun0_C; piece_tail; rfl
theorem C3 : sout0_C_3 c i a2 h2 a3 h3 a4 h4 a5 h5 a6 h6 a7 h7 a8 h8 a9 h9 a10 h10 a11 h11 a12 h12 hc0 hc1 x0 x1 x2 x3 o0 o1 o2 o3 o4 o5 = nLt x1 x3 o2 o3 := by
  unfold sout0_C_3; rw [View.read_writes_eq_canon _ _ _ (scover0_C_3 c i a2 h2 a3 h3 a4 h4 a5 h5 a6 h6 a7 h7 a8 h8 a9 h9 a10 h10 a11 h11 a12 h12 hc0 hc1 x0 x1 x2 x3 o0 o1 o2 o3 o4 o5)]; unfold kernelRun0_C; piece_tail; rfl
theorem C4 : sout0_C_4 c i a2 h2 a3 h3 a4 h4 a5 h5 a6 h6 a7 h7 a8 h8 a9 h9 a10 h10 a11 h11 a12 h12 hc0 hc1 x0 x1 x2 x3 o0 o1 o2 o3 o4 o5 = nA1 x1 x3 o2 o4 := by
  unfold sout0_C_4; rw [View.read_writes_eq_canon _ _ _ (scover0_C_4 c i a2 h2 a3 h3 a4 h4 a5 h5 a6 h6 a7 h7 a8 h8 a9 h9 a10 h10 a11 h11 a12 h12 hc0 hc1 x0 x1 x2 x3 o0 o1 o2 o3 o4 o5)]; unfold kernelRun0_C; piece_tail; rfl
theorem C5 : sout0_C_5 c i a2 h2 a3 h3 a4 h4 a5 h5 a6 h6 a7 h7 a8 h8 a9 h9 a10 h10 a11 h11 a12 h12 hc0 hc1 x0 x1 x2 x3 o0 o1 o2 o3 o4 o5 = nA2 x0 x1 x2 x3 o2 o5 := by
  unfold sout0_C_5; rw [View.read_writes_eq_canon _ _ _ (scover0_C_5 c i a2 h2 a3 h3 a4 h4 a5 h5 a6 h6 a7 h7 a8 h8 a9 h9 a10 h10 a11 h11 a12 h12 hc0 hc1 x0 x1 x2 x3 o0 o1 o2 o3 o4 o5)]; unfold kernelRun0_C; piece_tail; rfl
theorem Cout : out0_C_4 c i a2 h2 a3 h3 a4 h4 a5 h5 a6 h6 a7 h7 a8 h8 a9 h9 a10 h10 a11 h11 a12 h12 hc0 hc1 x0 x1 x2 x3 o0 o1 o2 o3 o4 o5
    = rowOut (nMs x0 x2 o0) (nLs x0 x2 o0 o1) (nMt x1 x3 o2) (nLt x1 x3 o2 o3) (nA1 x1 x3 o2 o4) (nA2 x0 x1 x2 x3 o2 o5) := by
  unfold out0_C_4; rw [View.read_writes_eq_canon _ _ _ (cover0_C_4 c i a2 h2 a3 h3 a4 h4 a5 h5 a6 h6 a7 h7 a8 h8 a9 h9 a10 h10 a11 h11 a12 h12 hc0 hc1 x0 x1 x2 x3 o0 o1 o2 o3 o4 o5)]; unfold kernelRun0_C; piece_tail; rfl
end C

/-! ### A row block's first tile -/
section A
variable (hc0 : cond0_0 i) (hc1 : ¬cond0_1 i)

theorem A0 : sout0_A_0 c i a2 h2 a3 h3 a4 h4 a5 h5 a6 h6 a7 h7 a8 h8 a9 h9 a10 h10 a11 h11 a12 h12 hc0 hc1 x0 x1 x2 x3 = nMs x0 x2 negInf := by
  unfold sout0_A_0; rw [View.read_writes_eq_canon _ _ _ (scover0_A_0 c i a2 h2 a3 h3 a4 h4 a5 h5 a6 h6 a7 h7 a8 h8 a9 h9 a10 h10 a11 h11 a12 h12 hc0 hc1 x0 x1 x2 x3)]; unfold kernelRun0_A; piece_tail; rfl
theorem A1 : sout0_A_1 c i a2 h2 a3 h3 a4 h4 a5 h5 a6 h6 a7 h7 a8 h8 a9 h9 a10 h10 a11 h11 a12 h12 hc0 hc1 x0 x1 x2 x3 = nLs x0 x2 negInf zeroS := by
  unfold sout0_A_1; rw [View.read_writes_eq_canon _ _ _ (scover0_A_1 c i a2 h2 a3 h3 a4 h4 a5 h5 a6 h6 a7 h7 a8 h8 a9 h9 a10 h10 a11 h11 a12 h12 hc0 hc1 x0 x1 x2 x3)]; unfold kernelRun0_A; piece_tail; rfl
theorem A2 : sout0_A_2 c i a2 h2 a3 h3 a4 h4 a5 h5 a6 h6 a7 h7 a8 h8 a9 h9 a10 h10 a11 h11 a12 h12 hc0 hc1 x0 x1 x2 x3 = nMt x1 x3 negInfT := by
  unfold sout0_A_2; rw [View.read_writes_eq_canon _ _ _ (scover0_A_2 c i a2 h2 a3 h3 a4 h4 a5 h5 a6 h6 a7 h7 a8 h8 a9 h9 a10 h10 a11 h11 a12 h12 hc0 hc1 x0 x1 x2 x3)]; unfold kernelRun0_A; piece_tail; rfl
theorem A3 : sout0_A_3 c i a2 h2 a3 h3 a4 h4 a5 h5 a6 h6 a7 h7 a8 h8 a9 h9 a10 h10 a11 h11 a12 h12 hc0 hc1 x0 x1 x2 x3 = nLt x1 x3 negInfT zeroT := by
  unfold sout0_A_3; rw [View.read_writes_eq_canon _ _ _ (scover0_A_3 c i a2 h2 a3 h3 a4 h4 a5 h5 a6 h6 a7 h7 a8 h8 a9 h9 a10 h10 a11 h11 a12 h12 hc0 hc1 x0 x1 x2 x3)]; unfold kernelRun0_A; piece_tail; rfl
theorem A4 : sout0_A_4 c i a2 h2 a3 h3 a4 h4 a5 h5 a6 h6 a7 h7 a8 h8 a9 h9 a10 h10 a11 h11 a12 h12 hc0 hc1 x0 x1 x2 x3 = nA1 x1 x3 negInfT zeroA1 := by
  unfold sout0_A_4; rw [View.read_writes_eq_canon _ _ _ (scover0_A_4 c i a2 h2 a3 h3 a4 h4 a5 h5 a6 h6 a7 h7 a8 h8 a9 h9 a10 h10 a11 h11 a12 h12 hc0 hc1 x0 x1 x2 x3)]; unfold kernelRun0_A; piece_tail; rfl
theorem A5 : sout0_A_5 c i a2 h2 a3 h3 a4 h4 a5 h5 a6 h6 a7 h7 a8 h8 a9 h9 a10 h10 a11 h11 a12 h12 hc0 hc1 x0 x1 x2 x3 = nA2 x0 x1 x2 x3 negInfT zeroA2 := by
  unfold sout0_A_5; rw [View.read_writes_eq_canon _ _ _ (scover0_A_5 c i a2 h2 a3 h3 a4 h4 a5 h5 a6 h6 a7 h7 a8 h8 a9 h9 a10 h10 a11 h11 a12 h12 hc0 hc1 x0 x1 x2 x3)]; unfold kernelRun0_A; piece_tail; rfl
end A

end Cert.KernelIdeal.Cases

end
-- ==== Proof.KLSpec.lean ====
/-
  The fused KL-divergence loss, stated once, with no program in sight.

  A row of student logits `s` and teacher logits `t` over a vocabulary of 32000 entries is visited in 125 tiles of
  256 entries. The kernel keeps, per row, six running numbers: a running shift and a shifted exponential sum for
  the student (`ms`, `ls`), the same for the teacher (`mt`, `lt`), and two teacher-weighted sums, of the teacher's own
  logits (`a1`) and of the student's (`a2`). Visiting a tile replaces the shift by its maximum with the tile's largest
  entry and rescales what was accumulated by the exponential of the old shift minus the new one (`St.step`). After the
  last tile the row's loss is  (a1 − a2) / lt + ((ms + log ls) − (mt + log lt))  (`St.out`).

  The reference computes, per row,  Σ_v p_v · (log p_v − log q_v)  with  log p = t − c_t − log Σ e^{t − c_t}  and
  log q = s − c_s − log Σ e^{s − c_s}  for shifts `c_t`, `c_s` of its own (`refRow`).

  Both programs then add the 2048 rows to zero and divide by 2048 (`resultOf`).
-/
import Idealize.ShloMosaic.PureOps.Ideal
import Idealize.ShloMosaic.Lib.ValueIdx

noncomputable section

namespace KL

open Idealize.ShloMosaic Idealize.ShloMosaic.ValueIdx

/-- The largest entry of a tile, starting from −∞. -/
def cmax {B : ℕ} (z : Fin B → EReal) : EReal := (Finset.univ : Finset (Fin B)).fold max ⊥ z

/-- The six running numbers of one row. -/
structure St where
  ms : EReal
  ls : EReal
  mt : EReal
  lt : EReal
  a1 : EReal
  a2 : EReal

/-- Before the first tile: both shifts −∞, every sum zero. -/
def St.init : St := ⟨⊥, 0, ⊥, 0, 0, 0⟩

/-- Visiting one tile, `z` the student's entries and `y` the teacher's. -/
def St.step {B : ℕ} (σ : St) (z y : Fin B → EReal) : St where
  ms := max σ.ms (cmax z)
  ls := Ideal.exp (σ.ms - max σ.ms (cmax z)) * σ.ls + ∑ b, Ideal.exp (z b - max σ.ms (cmax z))
  mt := max σ.mt (cmax y)
  lt := Ideal.exp (σ.mt - max σ.mt (cmax y)) * σ.lt + ∑ b, Ideal.exp (y b - max σ.mt (cmax y))
  a1 := Ideal.exp (σ.mt - max σ.mt (cmax y)) * σ.a1 + ∑ b, Ideal.exp (y b - max σ.mt (cmax y)) * y b
  a2 := Ideal.exp (σ.mt - max σ.mt (cmax y)) * σ.a2 + ∑ b, Ideal.exp (y b - max σ.mt (cmax y)) * z b

/-- The row's loss from its running numbers. -/
def St.out (σ : St) : EReal :=
  Ideal.div (σ.a1 - σ.a2) σ.lt + ((σ.ms + Ideal.log σ.ls) - (σ.mt + Ideal.log σ.lt))

/-- The running numbers after tile `j` (tiles counted from 0). -/
def run {B : ℕ} (s t : ℕ → Fin B → EReal) : ℕ → St
  | 0 => St.init.step (s 0) (t 0)
  | j + 1 => (run s t j).step (s (j + 1)) (t (j + 1))

/-- One entry of a shifted log-softmax with shift `c`. -/
def lsm {V : ℕ} (c : EReal) (s : Fin V → EReal) (v : Fin V) : EReal :=
  (s v - c) - Ideal.log (∑ w, Ideal.exp (s w - c))

/-- The reference's loss of one row, with its two shifts. -/
def refRow {V : ℕ} (cs ct : EReal) (s t : Fin V → EReal) : EReal :=
  ∑ v, Ideal.exp (lsm ct t v) * (lsm ct t v - lsm cs s v)

/-- The shapes of the activations and of the weights. -/
abbrev SX : Shape := ⟨2, ![2048, 4096]⟩
abbrev SW : Shape := ⟨2, ![32000, 4096]⟩

/-- Row `n` of the activations against row `v` of the weights (indices wrapped into range, so that the function is
    total over the naturals). -/
def logit (X : SX.Idx → EReal) (W : SW.Idx → EReal) (n v : ℕ) : EReal :=
  ∑ k : Fin 4096, X (ix2 (⟨n % 2048, Nat.mod_lt _ (by norm_num)⟩ : Fin 2048) k)
    * W (ix2 (⟨v % 32000, Nat.mod_lt _ (by norm_num)⟩ : Fin 32000) k)

/-- The kernel's loss of row `n`: the running numbers after the 125th tile, read out. -/
def kerRow (X TX : SX.Idx → EReal) (W TW : SW.Idx → EReal) (n : ℕ) : EReal :=
  (run (fun j (b : Fin 256) => logit X W n (256 * j + b.val)) (fun j (b : Fin 256) => logit TX TW n (256 * j + b.val)) 124).out

/-- The reference's loss of row `n`, with shifts `cs`, `ct`. -/
def refRowAt (cs ct : EReal) (X TX : SX.Idx → EReal) (W TW : SW.Idx → EReal) (n : ℕ) : EReal :=
  refRow cs ct (fun v : Fin 32000 => logit X W n v.val) (fun v : Fin 32000 => logit TX TW n v.val)

/-- Both programs' last two steps: the rows added to zero, divided by 2048. -/
def resultOf (rows : Fin 2048 → EReal) : EReal :=
  Ideal.div (Ideal.ofBits .f32 0x00000000#32 + ∑ n, rows n) (Ideal.ofBits .f32 0x45000000#32)

end KL

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.KRowRead.lean ====
/-
  One visit of the kernel's body, read row by row at the ideal values.

  Row p of each carried block is one extended real; the six of them are the specification's running numbers of that row
  (`rowSt`). Reading the stored blocks of Proof/KCases.lean at row p: the new shift is the old one's maximum with the
  tile row's largest entry (a lane reduction from −∞, cast back to a column), and each new sum is
  e^{old shift − new shift} · old sum + Σ_b e^{tile(p,b) − new shift} · weight(p,b)  (the column broadcast along the lanes,
  a lane sum from 0, cast back to a column) — which is the specification's step (`KL.St.step`) on the tile rows. A tile entry
  (p, b) is the contraction Σ_k x(p,k) · w(b,k) of an activation row with a weight row. The first tile's constants are −∞
  and 0 (`KL.St.init`), and the last tile's row loss is the specification's read-out (`KL.St.out`).
-/
import proofs.«176191_j14577119003196_1_alg».proof.Proof.KCases
import proofs.«176191_j14577119003196_1_alg».proof.Proof.KLSpec
import proofs.«176191_j14577119003196_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.RowRead

open Cert.KernelIdeal Cert.KernelIdeal.Gen Cert.KernelIdeal.Cases

/-! ## The operations of the body read at a row -/

/-- The f32 words of −∞ and of 0. -/
theorem ofBits_negInf : Ideal.ofBits .f32 0xFF800000#32 = (⊥ : EReal) := by simp [Ideal.ofBits, Ideal.ieee]

/-- A lane maximum from −∞ at row p: the largest entry of the row. -/
theorem rowmax (src : FVec Ideal S512x256 .f32) (p : Fin 512) :
    multiReduction .maximumf [1] S512 src 0xFF800000#32 Gen.reduces_S512x256_S512 (.inl rfl) rfl (ix1 p)
      = KL.cmax (fun b : Fin 256 => src (ix2 p b)) := by
  refine (Ideal.multiReduction_maximumf_single src 0xFF800000#32 Gen.reduces_S512x256_S512 (.inl rfl) rfl (ix1 p)).trans ?_
  unfold KL.cmax
  show Finset.fold max (Ideal.ofBits .f32 0xFF800000#32) _ _ = _
  rw [ofBits_negInf]
  refine Finset.fold_congr fun q _ => ?_
  exact congrArg src (funext fun d => Fin.ext (by match d with | ⟨0, _⟩ => rfl | ⟨1, _⟩ => rfl))

/-- A lane sum from 0 at row p. -/
theorem rowsum (src : FVec Ideal S512x256 .f32) (p : Fin 512) :
    multiReduction .add [1] S512 src 0x00000000#32 Gen.reduces_S512x256_S512 (.inl rfl) rfl (ix1 p) = ∑ b : Fin 256, src (ix2 p b) :=
  Cert.LibKeepdims.add_axis1_apply src 0x00000000#32 Gen.reduces_S512x256_S512 (.inl rfl) rfl p

/-- A vector of row values cast to a column, at row p. -/
theorem keep (v : FVec Ideal S512 .f32) (p : Fin 512) :
    shapeCast S512x1 v Gen.shapeCasts_S512_S512x1 (ix2 p (0 : Fin 1)) = v (ix1 p) :=
  Cert.LibKeepdims.shapeCast_a_a1_apply v Gen.shapeCasts_S512_S512x1 p 0

/-- A column broadcast along the lanes, at (p, b). -/
theorem lanes (w : FVec Ideal S512x1 .f32) (p : Fin 512) (b : Fin 256) :
    broadcastTo S512x256 w Gen.broadcasts_S512x1_S512x256 (ix2 p b) = w (ix2 p (0 : Fin 1)) :=
  Cert.LibKeepdims.broadcastTo_a1_ab_apply w Gen.broadcasts_S512x1_S512x256 p b

/-! ## The running numbers of a row, and one visit -/

/-- Row p of the six carried blocks. -/
def rowSt (o0 o1 o2 o3 o4 o5 : Vec Ideal S512x1 .f32) (p : Fin 512) : KL.St :=
  ⟨o0 (ix2 p (0 : Fin 1)), o1 (ix2 p (0 : Fin 1)), o2 (ix2 p (0 : Fin 1)), o3 (ix2 p (0 : Fin 1)), o4 (ix2 p (0 : Fin 1)),
    o5 (ix2 p (0 : Fin 1))⟩

variable (x0 x1 : Vec Ideal S512x4096 .bf16) (x2 x3 : Vec Ideal S256x4096 .bf16) (o0 o1 o2 o3 o4 o5 : Vec Ideal S512x1 .f32)
  (p : Fin 512)

theorem nMs_apply : nMs x0 x2 o0 (ix2 p (0 : Fin 1))
    = max (o0 (ix2 p (0 : Fin 1))) (KL.cmax fun b : Fin 256 => sTile x0 x2 (ix2 p b)) := by
  unfold nMs k0_pay14 k0_pay12 sTile
  dsimp only
  rw [shapeCast_self]
  exact congrArg (max (o0 (ix2 p (0 : Fin 1)))) ((keep _ p).trans (rowmax _ p))

theorem nMt_apply : nMt x1 x3 o2 (ix2 p (0 : Fin 1))
    = max (o2 (ix2 p (0 : Fin 1))) (KL.cmax fun b : Fin 256 => tTile x1 x3 (ix2 p b)) := by
  unfold nMt k0_pay2 k0_pay15 tTile
  dsimp only
  rw [shapeCast_self]
  exact congrArg (max (o2 (ix2 p (0 : Fin 1)))) ((keep _ p).trans (rowmax _ p))

/-- A rescaled old sum plus the tile row's weighted exponentials: the common shape of the four sums. -/
theorem acc_apply (oM oA newM : Vec Ideal S512x1 .f32) (tile wt : FVec Ideal S512x256 .f32) :
    addf (mulf (exp (subf oM newM)) oA)
        (shapeCast S512x1 (multiReduction .add [1] S512 (mulf (exp (subf tile (broadcastTo S512x256 newM Gen.broadcasts_S512x1_S512x256))) wt)
          0x00000000#32 Gen.reduces_S512x256_S512 (.inl rfl) rfl) Gen.shapeCasts_S512_S512x1) (ix2 p (0 : Fin 1))
      = Ideal.exp (oM (ix2 p (0 : Fin 1)) - newM (ix2 p (0 : Fin 1))) * oA (ix2 p (0 : Fin 1))
        + ∑ b : Fin 256, Ideal.exp (tile (ix2 p b) - newM (ix2 p (0 : Fin 1))) * wt (ix2 p b) := by
  show Ideal.exp (oM (ix2 p (0 : Fin 1)) - newM (ix2 p (0 : Fin 1))) * oA (ix2 p (0 : Fin 1)) + shapeCast S512x1 _ Gen.shapeCasts_S512_S512x1 (ix2 p (0 : Fin 1)) = _
  refine congrArg (_ + ·) ((keep _ p).trans ((rowsum _ p).trans (Finset.sum_congr rfl fun b _ => ?_)))
  show Ideal.exp (tile (ix2 p b) - broadcastTo S512x256 newM Gen.broadcasts_S512x1_S512x256 (ix2 p b)) * wt (ix2 p b) = _
  rw [lanes]

/-- The same without a weight (the plain shifted exponential sums). -/
theorem sum_apply (oM oA newM : Vec Ideal S512x1 .f32) (tile : FVec Ideal S512x256 .f32) :
    addf (mulf (exp (subf oM newM)) oA)
        (shapeCast S512x1 (multiReduction .add [1] S512 (exp (subf tile (broadcastTo S512x256 newM Gen.broadcasts_S512x1_S512x256)))
          0x00000000#32 Gen.reduces_S512x256_S512 (.inl rfl) rfl) Gen.shapeCasts_S512_S512x1) (ix2 p (0 : Fin 1))
      = Ideal.exp (oM (ix2 p (0 : Fin 1)) - newM (ix2 p (0 : Fin 1))) * oA (ix2 p (0 : Fin 1))
        + ∑ b : Fin 256, Ideal.exp (tile (ix2 p b) - newM (ix2 p (0 : Fin 1))) := by
  show Ideal.exp (oM (ix2 p (0 : Fin 1)) - newM (ix2 p (0 : Fin 1))) * oA (ix2 p (0 : Fin 1)) + shapeCast S512x1 _ Gen.shapeCasts_S512_S512x1 (ix2 p (0 : Fin 1)) = _
  refine congrArg (_ + ·) ((keep _ p).trans ((rowsum _ p).trans (Finset.sum_congr rfl fun b _ => ?_)))
  show Ideal.exp (tile (ix2 p b) - broadcastTo S512x256 newM Gen.broadcasts_S512x1_S512x256 (ix2 p b)) = _
  rw [lanes]

theorem nLs_apply : nLs x0 x2 o0 o1 (ix2 p (0 : Fin 1))
    = Ideal.exp (o0 (ix2 p (0 : Fin 1)) - nMs x0 x2 o0 (ix2 p (0 : Fin 1))) * o1 (ix2 p (0 : Fin 1))
      + ∑ b : Fin 256, Ideal.exp (sTile x0 x2 (ix2 p b) - nMs x0 x2 o0 (ix2 p (0 : Fin 1))) := by
  have e : nMs x0 x2 o0 = k0_pay12 x0 x2 o0 := by unfold nMs k0_pay14; dsimp only; rw [shapeCast_self]
  rw [e]
  unfold nLs k0_pay13 sTile
  dsimp only
  rw [shapeCast_self]
  exact sum_apply p o0 o1 (k0_pay12 x0 x2 o0) (k0_pay10 x0 x2)

theorem nLt_apply : nLt x1 x3 o2 o3 (ix2 p (0 : Fin 1))
    = Ideal.exp (o2 (ix2 p (0 : Fin 1)) - nMt x1 x3 o2 (ix2 p (0 : Fin 1))) * o3 (ix2 p (0 : Fin 1))
      + ∑ b : Fin 256, Ideal.exp (tTile x1 x3 (ix2 p b) - nMt x1 x3 o2 (ix2 p (0 : Fin 1))) := by
  have e : nMt x1 x3 o2 = k0_pay15 (k0_pay11 x1 x3) o2 := by unfold nMt k0_pay2; dsimp only; rw [shapeCast_self]
  rw [e]
  unfold nLt k0_pay1 k0_pay20 k0_pay16 k0_pay17 tTile
  dsimp only
  rw [shapeCast_self]
  exact sum_apply p o2 o3 (k0_pay15 (k0_pay11 x1 x3) o2) (k0_pay11 x1 x3)

theorem nA1_apply : nA1 x1 x3 o2 o4 (ix2 p (0 : Fin 1))
    = Ideal.exp (o2 (ix2 p (0 : Fin 1)) - nMt x1 x3 o2 (ix2 p (0 : Fin 1))) * o4 (ix2 p (0 : Fin 1))
      + ∑ b : Fin 256, Ideal.exp (tTile x1 x3 (ix2 p b) - nMt x1 x3 o2 (ix2 p (0 : Fin 1))) * tTile x1 x3 (ix2 p b) := by
  have e : nMt x1 x3 o2 = k0_pay15 (k0_pay11 x1 x3) o2 := by unfold nMt k0_pay2; dsimp only; rw [shapeCast_self]
  rw [e]
  unfold nA1 k0_pay18 k0_pay16 k0_pay17 tTile
  dsimp only
  rw [shapeCast_self]
  exact acc_apply p o2 o4 (k0_pay15 (k0_pay11 x1 x3) o2) (k0_pay11 x1 x3) (k0_pay11 x1 x3)

theorem nA2_apply : nA2 x0 x1 x2 x3 o2 o5 (ix2 p (0 : Fin 1))
    = Ideal.exp (o2 (ix2 p (0 : Fin 1)) - nMt x1 x3 o2 (ix2 p (0 : Fin 1))) * o5 (ix2 p (0 : Fin 1))
      + ∑ b : Fin 256, Ideal.exp (tTile x1 x3 (ix2 p b) - nMt x1 x3 o2 (ix2 p (0 : Fin 1))) * sTile x0 x2 (ix2 p b) := by
  have e : nMt x1 x3 o2 = k0_pay15 (k0_pay11 x1 x3) o2 := by unfold nMt k0_pay2; dsimp only; rw [shapeCast_self]
  rw [e]
  unfold nA2 k0_pay19 k0_pay16 k0_pay17 tTile sTile
  dsimp only
  rw [shapeCast_self]
  exact acc_apply p o2 o5 (k0_pay15 (k0_pay11 x1 x3) o2) (k0_pay11 x1 x3) (k0_pay10 x0 x2)

/-- One visit at row p is the specification's step on the tile rows. -/
theorem step_row :
    rowSt (nMs x0 x2 o0) (nLs x0 x2 o0 o1) (nMt x1 x3 o2) (nLt x1 x3 o2 o3) (nA1 x1 x3 o2 o4) (nA2 x0 x1 x2 x3 o2 o5) p
      = (rowSt o0 o1 o2 o3 o4 o5 p).step (fun b : Fin 256 => sTile x0 x2 (ix2 p b)) (fun b : Fin 256 => tTile x1 x3 (ix2 p b)) := by
  unfold rowSt KL.St.step
  dsimp only
  rw [nLs_apply, nLt_apply, nA1_apply, nA2_apply, nMs_apply, nMt_apply]

/-- The first tile's constants at row p are the specification's start. -/
theorem init_row : rowSt negInf zeroS negInfT zeroT zeroA1 zeroA2 p = KL.St.init := by
  unfold rowSt KL.St.init negInf zeroS negInfT zeroT zeroA1 zeroA2 k0_pay4 k0_pay5 k0_pay6 k0_pay7 k0_pay8 k0_pay9
  simp only [shapeCast_self]
  show (⟨Ideal.ofBits .f32 0xFF800000#32, Ideal.ofBits .f32 0x00000000#32, Ideal.ofBits .f32 0xFF800000#32,
    Ideal.ofBits .f32 0x00000000#32, Ideal.ofBits .f32 0x00000000#32, Ideal.ofBits .f32 0x00000000#32⟩ : KL.St) = _
  rw [ofBits_negInf, Ideal.ofBits_zero_f32]

/-- The last tile's row loss at row p is the specification's read-out. -/
theorem out_row (ms ls mt lt a1 a2 : Vec Ideal S512x1 .f32) :
    rowOut ms ls mt lt a1 a2 (ix2 p (0 : Fin 1)) = (rowSt ms ls mt lt a1 a2 p).out := by
  unfold rowOut k0_pay3 rowSt KL.St.out
  rfl

end Cert.KernelIdeal.RowRead

end
-- ==== Proof.KTiles.lean ====
/-
  The tiles of logits the kernel forms at a grid point, as entries of the argument arrays.

  The host first converts the four f32 arguments to bf16; at the ideal values a change of float format is the identity, so
  the arrays the region finds are the arguments themselves. Grid point t is row block t / 125 and vocabulary tile t % 125:
  the activations' windows hand the body rows 512·(t/125) … +511 of their arrays, the weights' windows rows
  256·(t%125) … +255 of theirs. The body's matrix product into a zero accumulator, contracting the second axis of both
  operands, is at (p, b) the sum over k of activation (p, k) times weight (b, k) — the specification's `logit` of row
  512·(t/125) + p against vocabulary entry 256·(t%125) + b.
-/
import proofs.«176191_j14577119003196_1_alg».proof.Proof.KCases
import proofs.«176191_j14577119003196_1_alg».proof.Proof.KLSpec
import Idealize.ShloMosaic.PureOps.Ideal.Laws
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Tiles

open Cert.KernelIdeal Cert.KernelIdeal.Gen Cert.KernelIdeal.Cases

variable (m : (ℓ : Loc nD τ sig) → Buf (Elt Ideal) ℓ)

/-! ## The arrays the region finds are the arguments -/

theorem V_v0 (c : Dev nD) : (V m c main_v0 : S2048x4096.Idx → EReal) = m ((c : Thread nD τ).loc main_arg0) := by
  show StableHlo.after hostOps0 (fun b => m (c, b)) (Proc.devRef .tc main_v0) = _
  after_results
  rfl
theorem V_v1 (c : Dev nD) : (V m c main_v1 : S2048x4096.Idx → EReal) = m ((c : Thread nD τ).loc main_arg1) := by
  show StableHlo.after hostOps0 (fun b => m (c, b)) (Proc.devRef .tc main_v1) = _
  after_results
  rfl
theorem V_v2 (c : Dev nD) : (V m c main_v2 : S32000x4096.Idx → EReal) = m ((c : Thread nD τ).loc main_arg2) := by
  show StableHlo.after hostOps0 (fun b => m (c, b)) (Proc.devRef .tc main_v2) = _
  after_results
  rfl
theorem V_v3 (c : Dev nD) : (V m c main_v3 : S32000x4096.Idx → EReal) = m ((c : Thread nD τ).loc main_arg3) := by
  show StableHlo.after hostOps0 (fun b => m (c, b)) (Proc.devRef .tc main_v3) = _
  after_results
  rfl

/-! ## Which rows a window's block holds -/

theorem idx0 : ∀ t : Fin cfg0.N, win0_0.index t 0 = t.val / 125 ∧ win0_0.index t 1 = 0 :=
  (by decide +kernel : ∀ t : Fin grid0.N, win0_0.index t 0 = t.val / 125 ∧ win0_0.index t 1 = 0)
theorem idx1 : ∀ t : Fin cfg0.N, win0_1.index t 0 = t.val / 125 ∧ win0_1.index t 1 = 0 :=
  (by decide +kernel : ∀ t : Fin grid0.N, win0_1.index t 0 = t.val / 125 ∧ win0_1.index t 1 = 0)
theorem idx2 : ∀ t : Fin cfg0.N, win0_2.index t 0 = t.val % 125 ∧ win0_2.index t 1 = 0 :=
  (by decide +kernel : ∀ t : Fin grid0.N, win0_2.index t 0 = t.val % 125 ∧ win0_2.index t 1 = 0)
theorem idx3 : ∀ t : Fin cfg0.N, win0_3.index t 0 = t.val % 125 ∧ win0_3.index t 1 = 0 :=
  (by decide +kernel : ∀ t : Fin grid0.N, win0_3.index t 0 = t.val % 125 ∧ win0_3.index t 1 = 0)
theorem idx4 : ∀ t : Fin cfg0.N, win0_4.index t 0 = t.val / 125 ∧ win0_4.index t 1 = 0 :=
  (by decide +kernel : ∀ t : Fin grid0.N, win0_4.index t 0 = t.val / 125 ∧ win0_4.index t 1 = 0)

theorem iblk0_apply (c : Dev nD) (t : Fin cfg0.N) (p : Fin 512) (k : Fin 4096) (n : Fin 2048)
    (hn : n.val = 512 * (t.val / 125) + p.val) :
    (iblk m c 0 t : Vec Ideal S512x4096 .bf16) (ix2 p k) = m ((c : Thread nD τ).loc main_arg0) (ix2 n k) := by
  have hi := idx0 t
  rw [← V_v0 m c]
  unfold iblk
  rw [View.read_apply]
  show V m c main_v0 _ = V m c main_v0 _
  congr 1
  funext a
  apply Fin.ext
  match a with
  | ⟨0, _⟩ => show win0_0.index t 0 * 512 + 1 * p.val = n.val; rw [hi.1, hn]; omega
  | ⟨1, _⟩ => show win0_0.index t 1 * 4096 + 1 * k.val = k.val; rw [hi.2]; omega

theorem iblk1_apply (c : Dev nD) (t : Fin cfg0.N) (p : Fin 512) (k : Fin 4096) (n : Fin 2048)
    (hn : n.val = 512 * (t.val / 125) + p.val) :
    (iblk m c 1 t : Vec Ideal S512x4096 .bf16) (ix2 p k) = m ((c : Thread nD τ).loc main_arg1) (ix2 n k) := by
  have hi := idx1 t
  rw [← V_v1 m c]
  unfold iblk
  rw [View.read_apply]
  show V m c main_v1 _ = V m c main_v1 _
  congr 1
  funext a
  apply Fin.ext
  match a with
  | ⟨0, _⟩ => show win0_1.index t 0 * 512 + 1 * p.val = n.val; rw [hi.1, hn]; omega
  | ⟨1, _⟩ => show win0_1.index t 1 * 4096 + 1 * k.val = k.val; rw [hi.2]; omega

theorem iblk2_apply (c : Dev nD) (t : Fin cfg0.N) (b : Fin 256) (k : Fin 4096) (v : Fin 32000)
    (hv : v.val = 256 * (t.val % 125) + b.val) :
    (iblk m c 2 t : Vec Ideal S256x4096 .bf16) (ix2 b k) = m ((c : Thread nD τ).loc main_arg2) (ix2 v k) := by
  have hi := idx2 t
  rw [← V_v2 m c]
  unfold iblk
  rw [View.read_apply]
  show V m c main_v2 _ = V m c main_v2 _
  congr 1
  funext a
  apply Fin.ext
  match a with
  | ⟨0, _⟩ => show win0_2.index t 0 * 256 + 1 * b.val = v.val; rw [hi.1, hv]; omega
  | ⟨1, _⟩ => show win0_2.index t 1 * 4096 + 1 * k.val = k.val; rw [hi.2]; omega

theorem iblk3_apply (c : Dev nD) (t : Fin cfg0.N) (b : Fin 256) (k : Fin 4096) (v : Fin 32000)
    (hv : v.val = 256 * (t.val % 125) + b.val) :
    (iblk m c 3 t : Vec Ideal S256x4096 .bf16) (ix2 b k) = m ((c : Thread nD τ).loc main_arg3) (ix2 v k) := by
  have hi := idx3 t
  rw [← V_v3 m c]
  unfold iblk
  rw [View.read_apply]
  show V m c main_v3 _ = V m c main_v3 _
  congr 1
  funext a
  apply Fin.ext
  match a with
  | ⟨0, _⟩ => show win0_3.index t 0 * 256 + 1 * b.val = v.val; rw [hi.1, hv]; omega
  | ⟨1, _⟩ => show win0_3.index t 1 * 4096 + 1 * k.val = k.val; rw [hi.2]; omega

/-! ## A tile entry is a contraction -/

theorem lhs0 (i : S512x256.Idx) (q : dot_S512x4096_S256x4096_S512x256_1_1_0_0_n_n.contr.Idx) : (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem rhs0 (i : S512x256.Idx) (q : dot_S512x4096_S256x4096_S512x256_1_1_0_0_n_n.contr.Idx) : (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl

/-- The product of a [512, 4096] block with a [256, 4096] block over their second axes, into zero, at (p, b). -/
theorem dot_apply (x : FVec Ideal S512x4096 .bf16) (w : FVec Ideal S256x4096 .bf16) (p : Fin 512) (b : Fin 256) :
    matmul dot_S512x4096_S256x4096_S512x256_1_1_0_0_n_n none x w (constant S512x256 .f32 0x00000000#32) (ix2 p b) = ∑ k : Fin 4096, x (ix2 p k) * w (ix2 b k) := by
  refine (Ideal.matmul_constant_zero_apply dot_S512x4096_S256x4096_S512x256_1_1_0_0_n_n none x w (ix2 p b)).trans ?_
  rw [← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p b) ((ValueIdx.contrEquiv1 dot_S512x4096_S256x4096_S512x256_1_1_0_0_n_n 4096 rfl rfl).symm k) = ix2 p k := funext fun a => Fin.ext (by
    match a with
    | ⟨0, _⟩ => exact lhs0 _ _
    | ⟨1, _⟩ => exact (dot_S512x4096_S256x4096_S512x256_1_1_0_0_n_n.lhsIdx_val_of_single rfl _ _).trans hk)
  have er : dot_S512x4096_S256x4096_S512x256_1_1_0_0_n_n.rhsIdx (ix2 p b) ((ValueIdx.contrEquiv1 dot_S512x4096_S256x4096_S512x256_1_1_0_0_n_n 4096 rfl rfl).symm k) = ix2 b k := funext fun a => Fin.ext (by
    match a with
    | ⟨0, _⟩ => exact rhs0 _ _
    | ⟨1, _⟩ => exact (dot_S512x4096_S256x4096_S512x256_1_1_0_0_n_n.rhsIdx_val_of_single rfl _ _).trans hk)
  rw [el, er]

theorem sTile_apply (x0 : Vec Ideal S512x4096 .bf16) (x2 : Vec Ideal S256x4096 .bf16) (p : Fin 512) (b : Fin 256) :
    sTile x0 x2 (ix2 p b) = ∑ k : Fin 4096, x0 (ix2 p k) * x2 (ix2 b k) := by
  unfold sTile k0_pay10
  rw [shapeCast_self, shapeCast_self]
  exact dot_apply x0 x2 p b

theorem tTile_apply (x1 : Vec Ideal S512x4096 .bf16) (x3 : Vec Ideal S256x4096 .bf16) (p : Fin 512) (b : Fin 256) :
    tTile x1 x3 (ix2 p b) = ∑ k : Fin 4096, x1 (ix2 p k) * x3 (ix2 b k) := by
  unfold tTile k0_pay11
  rw [shapeCast_self, shapeCast_self]
  exact dot_apply x1 x3 p b

/-! ## The tiles at a grid point are the specification's logits -/

theorem sTile_point (c : Dev nD) (t : Fin cfg0.N) (p : Fin 512) (b : Fin 256) :
    sTile (iblk m c 0 t) (iblk m c 2 t) (ix2 p b)
      = KL.logit (m ((c : Thread nD τ).loc main_arg0)) (m ((c : Thread nD τ).loc main_arg2))
          (512 * (t.val / 125) + p.val) (256 * (t.val % 125) + b.val) := by
  have hN : cfg0.N = 500 := N_0
  have ht := t.isLt
  have hn : 512 * (t.val / 125) + p.val < 2048 := by have := p.isLt; omega
  have hv : 256 * (t.val % 125) + b.val < 32000 := by have := b.isLt; omega
  rw [sTile_apply]
  unfold KL.logit
  refine Finset.sum_congr rfl fun k _ => ?_
  rw [iblk0_apply m c t p k ⟨(512 * (t.val / 125) + p.val) % 2048, Nat.mod_lt _ (by norm_num)⟩ (Nat.mod_eq_of_lt hn),
    iblk2_apply m c t b k ⟨(256 * (t.val % 125) + b.val) % 32000, Nat.mod_lt _ (by norm_num)⟩ (Nat.mod_eq_of_lt hv)]

theorem tTile_point (c : Dev nD) (t : Fin cfg0.N) (p : Fin 512) (b : Fin 256) :
    tTile (iblk m c 1 t) (iblk m c 3 t) (ix2 p b)
      = KL.logit (m ((c : Thread nD τ).loc main_arg1)) (m ((c : Thread nD τ).loc main_arg3))
          (512 * (t.val / 125) + p.val) (256 * (t.val % 125) + b.val) := by
  have hN : cfg0.N = 500 := N_0
  have ht := t.isLt
  have hn : 512 * (t.val / 125) + p.val < 2048 := by have := p.isLt; omega
  have hv : 256 * (t.val % 125) + b.val < 32000 := by have := b.isLt; omega
  rw [tTile_apply]
  unfold KL.logit
  refine Finset.sum_congr rfl fun k _ => ?_
  rw [iblk1_apply m c t p k ⟨(512 * (t.val / 125) + p.val) % 2048, Nat.mod_lt _ (by norm_num)⟩ (Nat.mod_eq_of_lt hn),
    iblk3_apply m c t b k ⟨(256 * (t.val % 125) + b.val) % 32000, Nat.mod_lt _ (by norm_num)⟩ (Nat.mod_eq_of_lt hv)]

end Cert.KernelIdeal.Tiles

end
-- ==== Proof.KRows.lean ====
/-
  The carried blocks, point by point: row p of the six blocks after grid point n holds the specification's running
  numbers of array row 512·(n/125) + p after its tile n % 125.

  A row block's first point (n % 125 = 0) visits its tile from the start constants; every later point visits its tile
  from what the point before left; the row index does not change inside a row block and the tile index goes up by one — so
  the blocks follow the specification's recursion (`KL.run`), by induction on the point. At a row block's last point the
  output block's row p is the read-out of those numbers.
-/
import proofs.«176191_j14577119003196_1_alg».proof.Proof.KRowRead
import proofs.«176191_j14577119003196_1_alg».proof.Proof.KTiles

noncomputable section

open Idealize.ShloMosaic Idealize.ShloMosaic.TcCoe Idealize.SL.Sem Idealize.ShloMosaic.ValueIdx

namespace Cert.KernelIdeal.Rows

open Cert.KernelIdeal Cert.KernelIdeal.Gen Cert.KernelIdeal.Cases Cert.KernelIdeal.RowRead

variable (m : (ℓ : Loc nD τ sig) → Buf (Elt Ideal) ℓ)

/-- Array row r's student and teacher logits, tile j, place b. -/
def sRow (c : Dev nD) (r : ℕ) : ℕ → Fin 256 → EReal := fun j b =>
  KL.logit (m ((c : Thread nD τ).loc main_arg0)) (m ((c : Thread nD τ).loc main_arg2)) r (256 * j + b.val)
def tRow (c : Dev nD) (r : ℕ) : ℕ → Fin 256 → EReal := fun j b =>
  KL.logit (m ((c : Thread nD τ).loc main_arg1)) (m ((c : Thread nD τ).loc main_arg3)) r (256 * j + b.val)

/-- Row p of the six carried blocks after point n. -/
def rowAt (c : Dev nD) (n : ℕ) (h : n < cfg0.N) (p : Fin 512) : KL.St :=
  rowSt (outsAt0 m c n h).2.1 (outsAt0 m c n h).2.2.1 (outsAt0 m c n h).2.2.2.1 (outsAt0 m c n h).2.2.2.2.1 (outsAt0 m c n h).2.2.2.2.2.1 (outsAt0 m c n h).2.2.2.2.2.2 p

/-- A row block's first point: the tile visited from the start. -/
theorem row_first (c : Dev nD) (t : Fin cfg0.N) (h0 : t.val % 125 = 0) (h1 : ¬t.val % 125 = 124) (p : Fin 512) :
    rowAt m c t.val t.isLt p
      = KL.St.init.step (sRow m c (512 * (t.val / 125) + p.val) (t.val % 125)) (tRow m c (512 * (t.val / 125) + p.val) (t.val % 125)) := by
  unfold rowAt
  rw [outsAt0_A m c t h0 h1]
  dsimp only
  rw [Cases.A0, Cases.A1, Cases.A2, Cases.A3, Cases.A4, Cases.A5, step_row, init_row]
  congr 1
  · funext b; exact Tiles.sTile_point m c t p b
  · funext b; exact Tiles.tTile_point m c t p b

/-- Any later point: the tile visited from what the point before left. -/
theorem row_next (c : Dev nD) (t : Fin cfg0.N) (h0 : ¬t.val % 125 = 0) (p : Fin 512) :
    rowAt m c t.val t.isLt p
      = (rowAt m c (t.val - 1) (Nat.lt_of_le_of_lt (Nat.sub_le _ _) t.isLt) p).step
          (sRow m c (512 * (t.val / 125) + p.val) (t.val % 125)) (tRow m c (512 * (t.val / 125) + p.val) (t.val % 125)) := by
  unfold rowAt
  by_cases h1 : t.val % 125 = 124
  · rw [outsAt0_C m c t h0 h1]
    dsimp only
    rw [Cases.C0, Cases.C1, Cases.C2, Cases.C3, Cases.C4, Cases.C5, step_row]
    congr 1
    · funext b; exact Tiles.sTile_point m c t p b
    · funext b; exact Tiles.tTile_point m c t p b
  · rw [outsAt0_B m c t h0 h1]
    dsimp only
    rw [Cases.B0, Cases.B1, Cases.B2, Cases.B3, Cases.B4, Cases.B5, step_row]
    congr 1
    · funext b; exact Tiles.sTile_point m c t p b
    · funext b; exact Tiles.tTile_point m c t p b

/-- A row block's last point: the output block's row is the read-out of the numbers just stored. -/
theorem out_last (c : Dev nD) (t : Fin cfg0.N) (h0 : ¬t.val % 125 = 0) (h1 : t.val % 125 = 124) (p : Fin 512) :
    (outsAt0 m c t.val t.isLt).1 (ix2 p (0 : Fin 1)) = (rowAt m c t.val t.isLt p).out := by
  unfold rowAt
  rw [outsAt0_C m c t h0 h1]
  dsimp only
  rw [Cases.Cout, Cases.C0, Cases.C1, Cases.C2, Cases.C3, Cases.C4, Cases.C5, out_row]

/-- The carried blocks follow the specification's recursion. -/
theorem rowAt_eq_run (c : Dev nD) : ∀ (n : ℕ) (h : n < cfg0.N) (p : Fin 512),
    rowAt m c n h p = KL.run (sRow m c (512 * (n / 125) + p.val)) (tRow m c (512 * (n / 125) + p.val)) (n % 125)
  | 0, h, p => by
    refine (row_first m c ⟨0, h⟩ rfl (by show ¬(0 : ℕ) % 125 = 124; decide) p).trans ?_
    show KL.St.init.step (sRow m c (512 * (0 / 125) + p.val) (0 % 125)) (tRow m c (512 * (0 / 125) + p.val) (0 % 125)) = _
    rw [Nat.zero_mod, KL.run]
  | n + 1, h, p => by
    by_cases h0 : (n + 1) % 125 = 0
    · have h1 : ¬(n + 1) % 125 = 124 := by omega
      refine (row_first m c ⟨n + 1, h⟩ h0 h1 p).trans ?_
      show KL.St.init.step (sRow m c (512 * ((n + 1) / 125) + p.val) ((n + 1) % 125)) (tRow m c (512 * ((n + 1) / 125) + p.val) ((n + 1) % 125)) = _
      rw [h0, KL.run]
    · have e1 : (n + 1) / 125 = n / 125 := by omega
      have e2 : (n + 1) % 125 = n % 125 + 1 := by omega
      refine (row_next m c ⟨n + 1, h⟩ h0 p).trans ?_
      show (rowAt m c n _ p).step (sRow m c (512 * ((n + 1) / 125) + p.val) ((n + 1) % 125)) (tRow m c (512 * ((n + 1) / 125) + p.val) ((n + 1) % 125)) = _
      rw [rowAt_eq_run c n (Nat.lt_of_succ_lt h) p, e1, e2, KL.run]

end Cert.KernelIdeal.Rows

end
-- ==== Proof.KValue.lean ====
/-
  The kernel's result.

  The output window is written back only at a row block's last tile (points ≡ 124 mod 125); its block there is the 512 row
  losses of that row block, so the four write-backs tile the [2048, 1] array of row losses: entry n is the specification's
  `kerRow` of row n. The host then adds the 2048 entries to zero and divides by 2048: the specification's `resultOf`.
-/
import proofs.«176191_j14577119003196_1_alg».proof.Proof.KRows
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The kernel's loss of array row n. -/
def rowLoss (c : Dev nD) (n : ℕ) : EReal := KL.kerRow (m ((c : Thread nD τ).loc main_arg0)) (m ((c : Thread nD τ).loc main_arg1)) (m ((c : Thread nD τ).loc main_arg2)) (m ((c : Thread nD τ).loc main_arg3)) n

/-- The array of row losses. -/
def G (c : Dev nD) : S2048x1.Idx → EReal := fun i => rowLoss m c (i 0).val

/-- At a row block's last point the output block holds that block's row losses. -/
theorem out_at (c : Dev nD) (t : Fin cfg0.N) (h0 : ¬t.val % 125 = 0) (h1 : t.val % 125 = 124) (j : S512x1.Idx) :
    (outsAt0 m c t.val t.isLt).1 j = rowLoss m c (512 * (t.val / 125) + (j 0).val) := by
  obtain ⟨p, q, rfl⟩ : ∃ (p : Fin 512) (q : Fin 1), j = ix2 p q := ⟨j 0, j 1, eq_ix2 j⟩
  obtain rfl : q = 0 := Subsingleton.elim _ _
  rw [Rows.out_last m c t h0 h1 p, Rows.rowAt_eq_run m c t.val t.isLt p, h1]
  rfl

/-- The output window's blocks are whole: 512 rows, 1 column, at every point. -/
theorem xs4 : ∀ t : Fin cfg0.N, win0_4.xsize (grid0.coords t) 0 = 512 ∧ win0_4.xsize (grid0.coords t) 1 = 1 :=
  (by decide +kernel : ∀ t : Fin grid0.N, win0_4.xsize (grid0.coords t) 0 = 512 ∧ win0_4.xsize (grid0.coords t) 1 = 1)

/-- What a write-back writes is the block of the array of row losses its rectangle names. -/
theorem flushed_eq (c : Dev nD) (t : Fin cfg0.N) (hf : (cfg0.win 4).flush t = true) :
    (dats m 0 c).flushed 4 t = ((cfg0.win 4).blk t).view.read (Elt Ideal) (G m c) := by
  have h1 : t.val % 125 = 124 := (flush0_4 t).mp hf
  have h0 : ¬t.val % 125 = 0 := by omega
  have hi := Tiles.idx4 t
  show (cfg0.win 4).cut (grid0.coords t) ((dats m 0 c).after 4 t) = _
  rw [after0_4]
  funext y
  rw [View.read_apply]
  refine (out_at m c t h0 h1 _).trans ?_
  show rowLoss m c (512 * (t.val / 125) + (y 0).val) = rowLoss m c (win0_4.index t 0 * 512 + 1 * (y 0).val)
  rw [hi.1]
  congr 1
  omega

/-- The four write-backs tile the array, so it ends holding the row losses. -/
theorem final (c : Dev nD) : (dats m 0 c).arrAt 4 cfg0.N = G m c :=
  (dats m 0 c).arrAt_eq_of_cover 4 (G m c) (flushed_eq m c) fun i => by
    have hN : cfg0.N = 500 := N_0
    have hi0 : (i 0 : Nat) < 2048 := (i 0).isLt
    have hi1 : (i 1 : Nat) < 1 := (i 1).isLt
    have ht : 125 * ((i 0 : Nat) / 512) + 124 < cfg0.N := by rw [hN]; omega
    refine ⟨⟨125 * ((i 0 : Nat) / 512) + 124, ht⟩, (flush0_4 _).mpr (by show (125 * ((i 0 : Nat) / 512) + 124) % 125 = 124; omega), ?_⟩
    have hx := xs4 ⟨125 * ((i 0 : Nat) / 512) + 124, ht⟩
    have hj := Tiles.idx4 ⟨125 * ((i 0 : Nat) / 512) + 124, ht⟩
    show i ∈ ((View.whole main_v4).slice (win0_4.rect ⟨125 * ((i 0 : Nat) / 512) + 124, ht⟩)).set
    rw [View.set_slice_whole, Rect.mem_set_unit]
    intro a
    match a with
    | ⟨0, _⟩ =>
      show win0_4.index _ 0 * 512 ≤ (i 0 : Nat) ∧ (i 0 : Nat) < win0_4.index _ 0 * 512 + win0_4.xsize (grid0.coords _) 0
      rw [hj.1, hx.1]
      show (125 * ((i 0 : Nat) / 512) + 124) / 125 * 512 ≤ (i 0 : Nat) ∧ (i 0 : Nat) < (125 * ((i 0 : Nat) / 512) + 124) / 125 * 512 + 512
      omega
    | ⟨1, _⟩ =>
      show win0_4.index _ 1 * 1 ≤ (i 1 : Nat) ∧ (i 1 : Nat) < win0_4.index _ 1 * 1 + win0_4.xsize (grid0.coords _) 1
      rw [hj.2, hx.2]
      omega

/-- The sum of the array of row losses over its indices is the sum over the rows. -/
theorem sum_G (c : Dev nD) : ∑ i : S2048x1.Idx, G m c i = ∑ n : Fin 2048, rowLoss m c n.val := by
  rw [ValueIdx.sum_idx2]
  refine Finset.sum_congr rfl fun n _ => ?_
  rw [Fin.sum_univ_one]
  rfl

/-- The host's two operations after the region: the rows added to zero, divided by 2048. -/
theorem tail (c : Dev nD) :
    Pipeline.afterTail₀ cfgs (dats m) 0 (V0 m) [hostOps1] c main_v6 = fun _ => KL.resultOf (fun n : Fin 2048 => rowLoss m c n.val) := by
  unfold Pipeline.afterTail₀
  show StableHlo.after hostOps1 _ (Proc.devRef .tc main_v6) = _
  after_results
  rw [show Pipeline.withArrays spec0 c (V0 m c) (fun w => (dats m 0 c).arrAt w cfg0.N) (Proc.devRef .tc main_v4) = G m c from
    (Pipeline.withArrays_arr spec0 launch0.win.arr_inj c _ _ 4).trans (final m c)]
  funext i
  unfold KL.resultOf
  show Ideal.div (Ideal.hostReduceAdd _ (G m c) (Ideal.ofBits .f32 0x00000000#32) i) (Ideal.ofBits .f32 0x45000000#32) = _
  rw [Ideal.hostReduceAdd_total _ (fun b => b.elim0) (G m c) _ i, sum_G]

/-- The run, read: the result at the specification's value of the row losses, the arguments unchanged. -/
theorem run : θ_run defs (onTc (τ := τ) (main (F := Ideal))) ⟨m, fun _ => 0, ρ⟩ fun r => ∀ c : Dev nD,
      r.2.mem ((c.tc : Thread nD τ).loc main_v6) = (fun _ => KL.resultOf (fun n : Fin 2048 => rowLoss m c n.val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefValue.lean ====
/-
  The reference program's result, index by index, as the specification's result of its rows.

  The reference forms the student's logits s = x0·x2ᵀ and the teacher's t = x1·x3ᵀ, takes a log-softmax of each (shift
  by the row's maximum c:  (z − c) − log Σ_w e^{z_w − c}),  multiplies  e^{lsm t}  by  lsm t − lsm s,  adds all
  2048 × 32000 products to zero and divides by 2048. Read at an index, every stage is the specification's: a logit is
  KL.logit, a row of the log-softmax is KL.lsm under that row's shift, a row of the products sums to KL.refRow, and the
  sum over all indices is the sum over the rows of the sums over each row.

  The shift of a row is the maximum of −∞ and the row's largest logit; over real logits it is a real number.
-/
import proofs.«176191_j14577119003196_1_alg».proof.Proof.RefRead
import proofs.«176191_j14577119003196_1_alg».proof.Proof.KLSpec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx

/-- The reference's shift of row n of the logits of X against W: the maximum of −∞ and the largest logit of the row. -/
def shift (X : KL.SX.Idx → EReal) (W : KL.SW.Idx → EReal) (n : Fin 2048) : EReal :=
  ReadP.val_main_call0_v2 (F := Ideal) X W (ix1 n)

/-- A logit of the reference, at row n and column v, is the specification's. -/
theorem logit_eq (X : KL.SX.Idx → EReal) (W : KL.SW.Idx → EReal) (n : Fin 2048) (v : Fin 32000) :
    ReadP.val_main_v0 (F := Ideal) X W (ix2 n v) = KL.logit X W n.val v.val := by
  rw [ReadP.val_main_v0_apply]
  unfold KL.logit
  refine Finset.sum_congr rfl fun k _ => ?_
  have el : ReadP.lidx_main_v0 (ix2 n v) k = ix2 (⟨n.val % 2048, Nat.mod_lt _ (by norm_num)⟩ : Fin 2048) k :=
    funext fun a => Fin.ext (by
      match a with
      | ⟨0, _⟩ => exact (Nat.mod_eq_of_lt n.isLt).symm
      | ⟨1, _⟩ => rfl)
  have er : ReadP.ridx_main_v0 (ix2 n v) k = ix2 (⟨v.val % 32000, Nat.mod_lt _ (by norm_num)⟩ : Fin 32000) k :=
    funext fun a => Fin.ext (by
      match a with
      | ⟨0, _⟩ => exact (Nat.mod_eq_of_lt v.isLt).symm
      | ⟨1, _⟩ => rfl)
  rw [el, er]

/-- The second log-softmax is the first one's function, of the teacher's pair. -/
theorem v3_eq_v2 (X : KL.SX.Idx → EReal) (W : KL.SW.Idx → EReal) :
    ReadP.val_main_v3 (F := Ideal) X W = ReadP.val_main_v2 (F := Ideal) X W := rfl

/-- The pattern 0xFF800000 (sign 1, exponent all ones, significand 0) is −∞. -/
theorem neg_inf_pattern : Ideal.ofBits .f32 0xFF800000#32 = (⊥ : EReal) := by
  simp [Ideal.ofBits, Ideal.ieee]

/-- A shifted logit: the logit minus its row's shift. -/
theorem shifted_eq (X : KL.SX.Idx → EReal) (W : KL.SW.Idx → EReal) (n : Fin 2048) (v : Fin 32000) :
    ReadP.val_main_call0_v5 (F := Ideal) X W (ix2 n v) = KL.logit X W n.val v.val - shift X W n := by
  rw [ReadP.val_main_call0_v5_apply, ReadP.val_main_call0_v4_apply, ReadP.val_main_call0_v3_apply, logit_eq]
  have e : ReadP.idx_main_call0_v3 (ReadP.idx_main_call0_v4 (ix2 n v)) = ix1 n :=
    funext fun a => Fin.ext (by match a with | ⟨0, _⟩ => rfl)
  rw [e]
  rfl

/-- The row's sum of exponentials of shifted logits (added to the zero word). -/
theorem expsum_eq (X : KL.SX.Idx → EReal) (W : KL.SW.Idx → EReal) (n : Fin 2048) :
    ReadP.val_main_call0_v7 (F := Ideal) X W (ix1 n)
      = ∑ w : Fin 32000, Ideal.exp (KL.logit X W n.val w.val - shift X W n) := by
  rw [ReadP.val_main_call0_v7_apply, ReadP.val_main_call0_cst_1_apply]
  show Ideal.ofBits .f32 0x00000000#32 + _ = _
  rw [Ideal.ofBits_zero_f32, zero_add]
  refine Finset.sum_congr rfl fun k _ => ?_
  have e : ReadP.idx_main_call0_v7 (ix1 n) k = ix2 n k :=
    funext fun a => Fin.ext (by match a with | ⟨0, _⟩ => rfl | ⟨1, _⟩ => rfl)
  rw [e, ReadP.val_main_call0_v6_apply, shifted_eq]
  rfl

/-- The log-softmax at row n, column v, is the specification's shifted log-softmax of the row under the row's shift. -/
theorem lsm_eq (X : KL.SX.Idx → EReal) (W : KL.SW.Idx → EReal) (n : Fin 2048) (v : Fin 32000) :
    ReadP.val_main_v2 (F := Ideal) X W (ix2 n v)
      = KL.lsm (shift X W n) (fun w : Fin 32000 => KL.logit X W n.val w.val) v := by
  rw [ReadP.val_main_v2_apply, ReadP.val_main_call0_v10_apply, ReadP.val_main_call0_v9_apply,
    ReadP.val_main_call0_v8_apply, shifted_eq]
  have e : ReadP.idx_main_call0_v8 (ReadP.idx_main_call0_v10 (ix2 n v)) = ix1 n :=
    funext fun a => Fin.ext (by match a with | ⟨0, _⟩ => rfl)
  rw [e, expsum_eq, Ideal.subf_def, Ideal.hostUnary_log_def]
  unfold KL.lsm
  exact rfl

/-- One product of the reference:  e^{lsm t} · (lsm t − lsm s)  at row n, column v. -/
theorem prod_eq (x0 x1 : KL.SX.Idx → EReal) (x2 x3 : KL.SW.Idx → EReal) (n : Fin 2048) (v : Fin 32000) :
    ReadP.val_main_v6 (F := Ideal) x0 x1 x2 x3 (ix2 n v)
      = Ideal.exp (KL.lsm (shift x1 x3 n) (fun w : Fin 32000 => KL.logit x1 x3 n.val w.val) v)
        * (KL.lsm (shift x1 x3 n) (fun w : Fin 32000 => KL.logit x1 x3 n.val w.val) v
          - KL.lsm (shift x0 x2 n) (fun w : Fin 32000 => KL.logit x0 x2 n.val w.val) v) := by
  rw [ReadP.val_main_v6_apply, ReadP.val_main_v5_apply, ReadP.val_main_v4_apply, v3_eq_v2, lsm_eq, lsm_eq]
  rfl

/-- The reference's result is the specification's result of its 2048 row losses, each under its own two shifts. -/
theorem ref_eq (x0 x1 : (⟨S2048x4096, .f32⟩ : BufTy).Contents (Elt Ideal)) (x2 x3 : (⟨S32000x4096, .f32⟩ : BufTy).Contents (Elt Ideal)) (i : S_.Idx) :
    ReadP.val_main_v8 (F := Ideal) x0 x1 x2 x3 i
      = KL.resultOf (fun n : Fin 2048 => KL.refRowAt (shift x0 x2 n) (shift x1 x3 n) x0 x1 x2 x3 n.val) := by
  rw [ReadP.val_main_v8_apply, ReadP.val_main_v7_apply, ReadP.val_main_cst_apply, ReadP.val_main_cst_0_apply,
    sum_idx2 (n0 := 2048) (n1 := 32000)]
  unfold KL.resultOf
  show Ideal.div (Ideal.ofBits .f32 0x00000000#32 + _) (Ideal.ofBits .f32 0x45000000#32) = _
  refine congrArg (fun s => Ideal.div (Ideal.ofBits .f32 0x00000000#32 + s) (Ideal.ofBits .f32 0x45000000#32)) ?_
  refine Finset.sum_congr rfl fun n _ => ?_
  unfold KL.refRowAt KL.refRow
  refine Finset.sum_congr rfl fun v _ => ?_
  exact prod_eq x0 x1 x2 x3 n v

/-- The running maximum from −∞ over real entries is −∞ (over no entries) or a real number. -/
theorem fold_max_real {ι : Type*} (s : Finset ι) (g : ι → EReal) (hg : ∀ i, ∃ r : ℝ, g i = (r : EReal)) :
    (s = ∅ ∧ s.fold (FloatOps.maximumf (F := Ideal) (φ := .f32)) (⊥ : EReal) g = ⊥)
      ∨ ∃ c : ℝ, s.fold (FloatOps.maximumf (F := Ideal) (φ := .f32)) (⊥ : EReal) g = (c : EReal) := by
  classical
  induction s using Finset.induction_on with
  | empty => exact Or.inl ⟨rfl, Finset.fold_empty⟩
  | insert a s ha ih =>
    right
    rw [Finset.fold_insert ha, Ideal.maximumf_def]
    obtain ⟨r, hr⟩ := hg a
    rw [hr]
    rcases ih with ⟨-, h⟩ | ⟨c, h⟩
    · rw [h]; exact ⟨r, max_eq_left bot_le⟩
    · rw [h]; exact ⟨max r c, (EReal.coe_strictMono.monotone.map_max).symm⟩

/-- Over a row of real logits the shift is a real number: the largest of finitely many (and at least one) reals. -/
theorem shift_real (X : KL.SX.Idx → EReal) (W : KL.SW.Idx → EReal) (n : Fin 2048)
    (h : ∀ v : ℕ, ∃ r : ℝ, KL.logit X W n.val v = (r : EReal)) : ∃ c : ℝ, shift X W n = (c : EReal) := by
  have hR : S2048x32000.Reduces [1] S2048 := by decide
  unfold shift
  rw [ReadP.val_main_call0_v2_apply, ReadP.val_main_call0_v1_apply, ReadP.val_main_call0_cst_0_apply]
  unfold ReadP.val_main_call0_v0
  rw [Host.reduce_eq_fold_single (α := Ideal .f32) (FloatOps.maximumf (F := Ideal) (φ := .f32)) _ _
      reducesTo_S2048x32000_S2048_d1 hR h_S_ (ix1 n),
    ReadP.val_main_call0_cst_apply, Ideal.ofBits_def, neg_inf_pattern, Ideal.maximumf_def]
  have hg : ∀ k, ∃ r : ℝ, (ReadP.val_main_v0 (F := Ideal) X W ∘ hR.lift (ix1 n)) k = (r : EReal) := fun k => by
    have e : hR.lift (ix1 n) k = ix2 n (⟨k.val, k.isLt⟩ : Fin 32000) :=
      funext fun a => Fin.ext (by match a with | ⟨0, _⟩ => rfl | ⟨1, _⟩ => rfl)
    show ∃ r : ℝ, ReadP.val_main_v0 (F := Ideal) X W (hR.lift (ix1 n) k) = (r : EReal)
    rw [e, logit_eq]
    exact h _
  rcases fold_max_real Finset.univ _ hg with ⟨hemp, -⟩ | ⟨c, hc⟩
  · haveI : Nonempty (Fin (S2048x32000.size 1)) := ⟨⟨0, by decide⟩⟩
    exact absurd hemp Finset.univ_nonempty.ne_empty
  · rw [hc]; exact ⟨c, max_eq_right bot_le⟩

end Cert.ReferenceIdeal.RefValue

end
-- ==== Proof.RefRun.lean ====
/-
  The reference program's run, one operation at a time.

  The reference's @main is a straight line of 39 operations: two matrix products (the student's and the teacher's
  logits), a log-softmax of each (fifteen operations apiece: the row maximum, the shift, the exponentials, their row
  sums, the logarithm, two subtractions), then  exp · (difference of the two log-softmaxes), summed over every entry
  and divided by 2048. Every buffer is written once and read only by later operations, so what the last buffer holds
  is found by walking the line once: after each operation the buffer it wrote holds the operation's function at what
  its operands held, and every other buffer holds what it did. Each stage is named (`ReadP.val_…`, the operation
  applied to the earlier stages), and a fact about a buffer is carried only as long as a later operation reads it, so
  no stage is ever expanded into its operands' terms.
-/
import proofs.«176191_j14577119003196_1_alg».proof.Proof.Gen.ReferenceIdeal
import proofs.«176191_j14577119003196_1_alg».proof.Proof.RefRead
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- @main's 39 operations, in order (a called function's operations stand in its call's place, spelt `TRef.…`). -/
abbrev ops : List (HloOp τ sig (Elt F)) :=
  [ binary main_arg0 main_arg2 main_v0 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    binary main_arg1 main_arg3 main_v1 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    TRef.nullary (TRef.of (T := ⟨S_, .f32⟩) main_call0_cst) (constant S_ .f32 0xFF800000#32),
    TRef.binary (TRef.of (T := ⟨S2048x32000, .f32⟩) main_v0) (TRef.of (T := ⟨S_, .f32⟩) main_call0_cst) (TRef.of (T := ⟨S2048, .f32⟩) main_call0_v0) (fun x v => Host.reduce FloatOps.maximumf x v reducesTo_S2048x32000_S2048_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2048, .f32⟩) main_call0_v1) (broadcastInDim S2048 ![] bcast_S_S2048),
    TRef.binary (TRef.of (T := ⟨S2048, .f32⟩) main_call0_v1) (TRef.of (T := ⟨S2048, .f32⟩) main_call0_v0) (TRef.of (T := ⟨S2048, .f32⟩) main_call0_v2) maximumf,
    TRef.unary (TRef.of (T := ⟨S2048, .f32⟩) main_call0_v2) (TRef.of (T := ⟨S2048x1, .f32⟩) main_call0_v3) (broadcastInDim S2048x1 ![0] bcast_S2048_S2048x1_0),
    TRef.unary (TRef.of (T := ⟨S2048x1, .f32⟩) main_call0_v3) (TRef.of (T := ⟨S2048x32000, .f32⟩) main_call0_v4) (broadcastInDim S2048x32000 ![0, 1] bcast_S2048x1_S2048x32000_0_1),
    TRef.binary (TRef.of (T := ⟨S2048x32000, .f32⟩) main_v0) (TRef.of (T := ⟨S2048x32000, .f32⟩) main_call0_v4) (TRef.of (T := ⟨S2048x32000, .f32⟩) main_call0_v5) subf,
    TRef.unary (TRef.of (T := ⟨S2048x32000, .f32⟩) main_call0_v5) (TRef.of (T := ⟨S2048x32000, .f32⟩) main_call0_v6) Host.exp,
    TRef.nullary (TRef.of (T := ⟨S_, .f32⟩) main_call0_cst_1) (constant S_ .f32 0x00000000#32),
    TRef.binary (TRef.of (T := ⟨S2048x32000, .f32⟩) main_call0_v6) (TRef.of (T := ⟨S_, .f32⟩) main_call0_cst_1) (TRef.of (T := ⟨S2048, .f32⟩) main_call0_v7) (fun x v => Host.reduceAdd x v reducesTo_S2048x32000_S2048_d1 h_S_),
    TRef.unary (TRef.of (T := ⟨S2048, .f32⟩) main_call0_v7) (TRef.of (T := ⟨S2048x1, .f32⟩) main_call0_v8) (broadcastInDim S2048x1 ![0] bcast_S2048_S2048x1_0),
    TRef.unary (TRef.of (T := ⟨S2048x1, .f32⟩) main_call0_v8) (TRef.of (T := ⟨S2048x1, .f32⟩) main_call0_v9) Host.log,
    TRef.unary (TRef.of (T := ⟨S2048x1, .f32⟩) main_call0_v9) (TRef.of (T := ⟨S2048x32000, .f32⟩) main_call0_v10) (broadcastInDim S2048x32000 ![0, 1] bcast_S2048x1_S2048x32000_0_1),
    TRef.binary (TRef.of (T := ⟨S2048x32000, .f32⟩) main_call0_v5) (TRef.of (T := ⟨S2048x32000, .f32⟩) main_call0_v10) (TRef.of (T := ⟨S2048x32000, .f32⟩) main_v2) subf,
    TRef.nullary (TRef.of (T := ⟨S_, .f32⟩) main_call1_cst) (constant S_ .f32 0xFF800000#32),
    TRef.binary (TRef.of (T := ⟨S2048x32000, .f32⟩) main_v1) (TRef.of (T := ⟨S_, .f32⟩) main_call1_cst) (TRef.of (T := ⟨S2048, .f32⟩) main_call1_v0) (fun x v => Host.reduce FloatOps.maximumf x v reducesTo_S2048x32000_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x32000, .f32⟩) main_call1_v4) (broadcastInDim S2048x32000 ![0, 1] bcast_S2048x1_S2048x32000_0_1),
    TRef.binary (TRef.of (T := ⟨S2048x32000, .f32⟩) main_v1) (TRef.of (T := ⟨S2048x32000, .f32⟩) main_call1_v4) (TRef.of (T := ⟨S2048x32000, .f32⟩) main_call1_v5) subf,
    TRef.unary (TRef.of (T := ⟨S2048x32000, .f32⟩) main_call1_v5) (TRef.of (T := ⟨S2048x32000, .f32⟩) main_call1_v6) Host.exp,
    TRef.nullary (TRef.of (T := ⟨S_, .f32⟩) main_call1_cst_1) (constant S_ .f32 0x00000000#32),
    TRef.binary (TRef.of (T := ⟨S2048x32000, .f32⟩) main_call1_v6) (TRef.of (T := ⟨S_, .f32⟩) main_call1_cst_1) (TRef.of (T := ⟨S2048, .f32⟩) main_call1_v7) (fun x v => Host.reduceAdd x v reducesTo_S2048x32000_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x32000, .f32⟩) main_call1_v10) (broadcastInDim S2048x32000 ![0, 1] bcast_S2048x1_S2048x32000_0_1),
    TRef.binary (TRef.of (T := ⟨S2048x32000, .f32⟩) main_call1_v5) (TRef.of (T := ⟨S2048x32000, .f32⟩) main_call1_v10) (TRef.of (T := ⟨S2048x32000, .f32⟩) main_v3) subf,
    unary main_v3 main_v4 (Host.exp : (⟨S2048x32000, .f32⟩ : BufTy).Contents (Elt F) → (⟨S2048x32000, .f32⟩ : BufTy).Contents (Elt F)),
    binary main_v3 main_v2 main_v5 (subf : (⟨S2048x32000, .f32⟩ : BufTy).Contents (Elt F) → (⟨S2048x32000, .f32⟩ : BufTy).Contents (Elt F) → (⟨S2048x32000, .f32⟩ : BufTy).Contents (Elt F)),
    binary main_v4 main_v5 main_v6 (mulf : (⟨S2048x32000, .f32⟩ : BufTy).Contents (Elt F) → (⟨S2048x32000, .f32⟩ : BufTy).Contents (Elt F) → (⟨S2048x32000, .f32⟩ : BufTy).Contents (Elt F)),
    nullary main_cst (constant S_ .f32 0x00000000#32),
    binary main_v6 main_cst main_v7 ((fun x v => Host.reduceAdd x v reducesTo_S2048x32000_S_d0_1 h_S_) : (⟨S2048x32000, .f32⟩ : BufTy).Contents (Elt F) → (⟨S_, .f32⟩ : BufTy).Contents (Elt F) → (⟨S_, .f32⟩ : BufTy).Contents (Elt F)),
    nullary main_cst_0 (constant S_ .f32 0x45000000#32),
    binary main_v7 main_cst_0 main_v8 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., binary_bufs_sub .., nullary_bufs_sub .., binary_bufs_sub .., nullary_bufs_sub .., binary_bufs_sub ..⟩

/-! ## One operation at a time

Running the head of a line of operations from contents `V` leaves contents `V'` of which two things are known: the
operation's result buffer holds its function's value at `V`'s contents of the operand buffers, and every other
reference holds what it held. The continuation is proved for ANY such `V'`, so nothing computed earlier is ever
unfolded again. -/

section Steps

variable {rest : List (HloOp τ sig (Elt F))} {V : Valuation τ sig (Elt F)} {d : DevRef τ sig} {X : d.ty.Contents (Elt F)}

theorem step_nullary {y : Ref sig .tc} {v : y.ty.Contents (Elt F)} {hy}
    (k : ∀ V' : Valuation τ sig (Elt F), V' (Proc.devRef .tc y) = v →
      (∀ r : Ref sig .tc, r ≠ y → V' (Proc.devRef .tc r) = V (Proc.devRef .tc r)) → after rest V' d = X) :
    after (nullary y v hy :: rest) V d = X :=
  k _ (nullary_result y v hy V) (fun _ h => nullary_result_ne y v hy V h)

theorem step_unary {x y : Ref sig .tc} {f : x.ty.Contents (Elt F) → y.ty.Contents (Elt F)} {hx hy}
    {A : x.ty.Contents (Elt F)} (hA : V (Proc.devRef .tc x) = A)
    (k : ∀ V' : Valuation τ sig (Elt F), V' (Proc.devRef .tc y) = f A →
      (∀ r : Ref sig .tc, r ≠ y → V' (Proc.devRef .tc r) = V (Proc.devRef .tc r)) → after rest V' d = X) :
    after (unary x y f hx hy :: rest) V d = X :=
  k _ ((unary_result x y f hx hy V).trans (congrArg f hA)) (fun _ h => unary_result_ne x y f hx hy V h)

theorem step_binary {a b y : Ref sig .tc} {f : a.ty.Contents (Elt F) → b.ty.Contents (Elt F) → y.ty.Contents (Elt F)} {ha hb hy}
    {A : a.ty.Contents (Elt F)} {B : b.ty.Contents (Elt F)} (hA : V (Proc.devRef .tc a) = A) (hB : V (Proc.devRef .tc b) = B)
    (k : ∀ V' : Valuation τ sig (Elt F), V' (Proc.devRef .tc y) = f A B →
      (∀ r : Ref sig .tc, r ≠ y → V' (Proc.devRef .tc r) = V (Proc.devRef .tc r)) → after rest V' d = X) :
    after (binary a b y f ha hb hy :: rest) V d = X :=
  k _ ((binary_result a b y f ha hb hy V).trans (congrArg₂ f hA hB)) (fun _ h => binary_result_ne a b y f ha hb hy V h)

/-! The operations of a function called from @main name their buffers together with the type of the value each
holds, and move contents between the buffer's own type and the value's along that equation. `rd x V` is the contents
of `x`'s buffer at the value's type; written and read back at that type, a value is unchanged whatever the equation. -/

/-- The contents of a typed reference's buffer, at the type of the value it holds. -/
def rd {T : BufTy} (x : TRef sig T) (V : Valuation τ sig (Elt F)) : T.Contents (Elt F) := x.ofBuf (V (Proc.devRef .tc x.ref))

theorem ofBuf_toBuf {T : BufTy} (x : TRef sig T) (v : T.Contents (Elt F)) : x.ofBuf (x.toBuf v) = v := by
  obtain ⟨r, h, _, _⟩ := x
  subst h
  rfl

theorem tstep_nullary {Ty : BufTy} {y : TRef sig Ty} {v : Ty.Contents (Elt F)}
    (k : ∀ V' : Valuation τ sig (Elt F), rd y V' = v →
      (∀ {T : BufTy} (r : TRef sig T), r.ref ≠ y.ref → rd r V' = rd r V) → after rest V' d = X) :
    after (TRef.nullary y v :: rest) V d = X :=
  k _ ((congrArg y.ofBuf (nullary_result y.ref (y.toBuf v) y.dev V)).trans (ofBuf_toBuf y v))
    (fun r h => congrArg r.ofBuf (nullary_result_ne y.ref (y.toBuf v) y.dev V h))

theorem tstep_unary {Tx Ty : BufTy} {x : TRef sig Tx} {y : TRef sig Ty} {f : Tx.Contents (Elt F) → Ty.Contents (Elt F)}
    {A : Tx.Contents (Elt F)} (hA : rd x V = A)
    (k : ∀ V' : Valuation τ sig (Elt F), rd y V' = f A →
      (∀ {T : BufTy} (r : TRef sig T), r.ref ≠ y.ref → rd r V' = rd r V) → after rest V' d = X) :
    after (TRef.unary x y f :: rest) V d = X :=
  k _ ((congrArg y.ofBuf (unary_result x.ref y.ref (fun u => y.toBuf (f (x.ofBuf u))) x.dev y.dev V)).trans
      ((ofBuf_toBuf y _).trans (congrArg f hA)))
    (fun r h => congrArg r.ofBuf (unary_result_ne x.ref y.ref (fun u => y.toBuf (f (x.ofBuf u))) x.dev y.dev V h))

theorem tstep_binary {Ta Tb Ty : BufTy} {a : TRef sig Ta} {b : TRef sig Tb} {y : TRef sig Ty}
    {f : Ta.Contents (Elt F) → Tb.Contents (Elt F) → Ty.Contents (Elt F)}
    {A : Ta.Contents (Elt F)} {B : Tb.Contents (Elt F)} (hA : rd a V = A) (hB : rd b V = B)
    (k : ∀ V' : Valuation τ sig (Elt F), rd y V' = f A B →
      (∀ {T : BufTy} (r : TRef sig T), r.ref ≠ y.ref → rd r V' = rd r V) → after rest V' d = X) :
    after (TRef.binary a b y f :: rest) V d = X :=
  k _ ((congrArg y.ofBuf (binary_result a.ref b.ref y.ref (fun u v => y.toBuf (f (a.ofBuf u) (b.ofBuf v))) a.dev b.dev y.dev V)).trans
      ((ofBuf_toBuf y _).trans (congrArg₂ f hA hB)))
    (fun r h => congrArg r.ofBuf
      (binary_result_ne a.ref b.ref y.ref (fun u v => y.toBuf (f (a.ofBuf u) (b.ofBuf v))) a.dev b.dev y.dev V h))

end Steps

/-! ## The typed references of the two calls -/

abbrev tac : TRef sig ⟨S_, .f32⟩ := TRef.of main_call0_cst
abbrev ta0 : TRef sig ⟨S2048, .f32⟩ := TRef.of main_call0_v0
abbrev tv0 : TRef sig ⟨S2048x32000, .f32⟩ := TRef.of main_v0
abbrev tac0 : TRef sig ⟨S_, .f32⟩ := TRef.of main_call0_cst_0
abbrev ta1 : TRef sig ⟨S2048, .f32⟩ := TRef.of main_call0_v1
abbrev ta2 : TRef sig ⟨S2048, .f32⟩ := TRef.of main_call0_v2
abbrev ta3 : TRef sig ⟨S2048x1, .f32⟩ := TRef.of main_call0_v3
abbrev ta4 : TRef sig ⟨S2048x32000, .f32⟩ := TRef.of main_call0_v4
abbrev ta5 : TRef sig ⟨S2048x32000, .f32⟩ := TRef.of main_call0_v5
abbrev ta6 : TRef sig ⟨S2048x32000, .f32⟩ := TRef.of main_call0_v6
abbrev tac1 : TRef sig ⟨S_, .f32⟩ := TRef.of main_call0_cst_1
abbrev ta7 : TRef sig ⟨S2048, .f32⟩ := TRef.of main_call0_v7
abbrev ta8 : TRef sig ⟨S2048x1, .f32⟩ := TRef.of main_call0_v8
abbrev ta9 : TRef sig ⟨S2048x1, .f32⟩ := TRef.of main_call0_v9
abbrev ta10 : TRef sig ⟨S2048x32000, .f32⟩ := TRef.of main_call0_v10
abbrev tv2 : TRef sig ⟨S2048x32000, .f32⟩ := TRef.of main_v2
abbrev tbc : TRef sig ⟨S_, .f32⟩ := TRef.of main_call1_cst
abbrev tb0 : TRef sig ⟨S2048, .f32⟩ := TRef.of main_call1_v0
abbrev tv1 : TRef sig ⟨S2048x32000, .f32⟩ := TRef.of main_v1
abbrev tbc0 : TRef sig ⟨S_, .f32⟩ := TRef.of main_call1_cst_0
abbrev tb1 : TRef sig ⟨S2048, .f32⟩ := TRef.of main_call1_v1
abbrev tb2 : TRef sig ⟨S2048, .f32⟩ := TRef.of main_call1_v2
abbrev tb3 : TRef sig ⟨S2048x1, .f32⟩ := TRef.of main_call1_v3
abbrev tb4 : TRef sig ⟨S2048x32000, .f32⟩ := TRef.of main_call1_v4
abbrev tb5 : TRef sig ⟨S2048x32000, .f32⟩ := TRef.of main_call1_v5
abbrev tb6 : TRef sig ⟨S2048x32000, .f32⟩ := TRef.of main_call1_v6
abbrev tbc1 : TRef sig ⟨S_, .f32⟩ := TRef.of main_call1_cst_1
abbrev tb7 : TRef sig ⟨S2048, .f32⟩ := TRef.of main_call1_v7
abbrev tb8 : TRef sig ⟨S2048x1, .f32⟩ := TRef.of main_call1_v8
abbrev tb9 : TRef sig ⟨S2048x1, .f32⟩ := TRef.of main_call1_v9
abbrev tb10 : TRef sig ⟨S2048x32000, .f32⟩ := TRef.of main_call1_v10
abbrev tv3 : TRef sig ⟨S2048x32000, .f32⟩ := TRef.of main_v3

/-! ## The line, operation by operation -/

set_option maxHeartbeats 1000000 in
/-- From any contents `V` of the device's buffers, the 39 operations leave `main_v8` holding the last stage of the
    reference read as a function of the four arguments' contents. -/
theorem after_ops (V : Valuation τ sig (Elt F))
    (A0 A1 : (⟨S2048x4096, .f32⟩ : BufTy).Contents (Elt F)) (A2 A3 : (⟨S32000x4096, .f32⟩ : BufTy).Contents (Elt F))
    (h0 : V (Proc.devRef .tc main_arg0) = A0) (h1 : V (Proc.devRef .tc main_arg1) = A1)
    (h2 : V (Proc.devRef .tc main_arg2) = A2) (h3 : V (Proc.devRef .tc main_arg3) = A3) :
    after ops V (Proc.devRef .tc main_v8) = ReadP.val_main_v8 A0 A1 A2 A3 := by
  -- %v0: the student's logits
  refine step_binary h0 h2 fun V n fr => ?_
  replace h1 := (fr _ (by decide)).trans h1; replace h3 := (fr _ (by decide)).trans h3
  have v0 : V (Proc.devRef .tc main_v0) = ReadP.val_main_v0 A0 A2 := n
  -- %v1: the teacher's logits
  refine step_binary h1 h3 fun V n fr => ?_
  replace v0 := (fr _ (by decide)).trans v0
  have v1 : V (Proc.devRef .tc main_v1) = ReadP.val_main_v1 A1 A3 := n
  -- the two log-softmaxes read and write buffers at the types of their values
  replace v0 : rd tv0 V = ReadP.val_main_v0 A0 A2 := v0
  replace v1 : rd tv1 V = ReadP.val_main_v1 A1 A3 := v1
  -- %call0_cst: −∞
  refine tstep_nullary fun V n fr => ?_
  replace v0 := (fr _ (by decide)).trans v0; replace v1 := (fr _ (by decide)).trans v1
  have ac : rd tac V = ReadP.val_main_call0_cst := n
  -- %call0_v0: each row's largest logit
  refine tstep_binary v0 ac fun V n fr => ?_
  replace v0 := (fr _ (by decide)).trans v0; replace v1 := (fr _ (by decide)).trans v1
  have a0 : rd ta0 V = ReadP.val_main_call0_v0 A0 A2 := n
  -- %call0_cst_0: −∞
  refine tstep_nullary fun V n fr => ?_
  replace v0 := (fr _ (by decide)).trans v0; replace v1 := (fr _ (by decide)).trans v1; replace a0 := (fr _ (by decide)).trans a0
  have ac0 : rd tac0 V = ReadP.val_main_call0_cst_0 := n
  -- %call0_v1: −∞ in every row
  refine tstep_unary ac0 fun V n fr => ?_
  replace v0 := (fr _ (by decide)).trans v0; replace v1 := (fr _ (by decide)).trans v1; replace a0 := (fr _ (by decide)).trans a0
  have a1 : rd ta1 V = ReadP.val_main_call0_v1 := n
  -- %call0_v2: the shift: the larger of the two
  refine tstep_binary a1 a0 fun V n fr => ?_
  replace v0 := (fr _ (by decide)).trans v0; replace v1 := (fr _ (by decide)).trans v1
  have a2 : rd ta2 V = ReadP.val_main_call0_v2 A0 A2 := n
  -- %call0_v3: the shift, as a column
  refine tstep_unary a2 fun V n fr => ?_
  replace v0 := (fr _ (by decide)).trans v0; replace v1 := (fr _ (by decide)).trans v1
  have a3 : rd ta3 V = ReadP.val_main_call0_v3 A0 A2 := n
  -- %call0_v4: the shift, at every entry
  refine tstep_unary a3 fun V n fr => ?_
  replace v0 := (fr _ (by decide)).trans v0; replace v1 := (fr _ (by decide)).trans v1
  have a4 : rd ta4 V = ReadP.val_main_call0_v4 A0 A2 := n
  -- %call0_v5: the shifted logits
  refine tstep_binary v0 a4 fun V n fr => ?_
  replace v1 := (fr _ (by decide)).trans v1
  have a5 : rd ta5 V = ReadP.val_main_call0_v5 A0 A2 := n
  -- %call0_v6: their exponentials
  refine tstep_unary a5 fun V n fr => ?_
  replace v1 := (fr _ (by decide)).trans v1; replace a5 := (fr _ (by decide)).trans a5
  have a6 : rd ta6 V = ReadP.val_main_call0_v6 A0 A2 := n
  -- %call0_cst_1: zero
  refine tstep_nullary fun V n fr => ?_
  replace v1 := (fr _ (by decide)).trans v1; replace a5 := (fr _ (by decide)).trans a5; replace a6 := (fr _ (by decide)).trans a6
  have ac1 : rd tac1 V = ReadP.val_main_call0_cst_1 := n
  -- %call0_v7: each row's sum of exponentials
  refine tstep_binary a6 ac1 fun V n fr => ?_
  replace v1 := (fr _ (by decide)).trans v1; replace a5 := (fr _ (by decide)).trans a5
  have a7 : rd ta7 V = ReadP.val_main_call0_v7 A0 A2 := n
  -- %call0_v8: the sums, as a column
  refine tstep_unary a7 fun V n fr => ?_
  replace v1 := (fr _ (by decide)).trans v1; replace a5 := (fr _ (by decide)).trans a5
  have a8 : rd ta8 V = ReadP.val_main_call0_v8 A0 A2 := n
  -- %call0_v9: their logarithms
  refine tstep_unary a8 fun V n fr => ?_
  replace v1 := (fr _ (by decide)).trans v1; replace a5 := (fr _ (by decide)).trans a5
  have a9 : rd ta9 V = ReadP.val_main_call0_v9 A0 A2 := n
  -- %call0_v10: the logarithms, at every entry
  refine tstep_unary a9 fun V n fr => ?_
  replace v1 := (fr _ (by decide)).trans v1; replace a5 := (fr _ (by decide)).trans a5
  have a10 : rd ta10 V = ReadP.val_main_call0_v10 A0 A2 := n
  -- %v2: the log-softmax
  refine tstep_binary a5 a10 fun V n fr => ?_
  replace v1 := (fr _ (by decide)).trans v1
  have v2 : rd tv2 V = ReadP.val_main_v2 A0 A2 := n
  -- %call1_cst: −∞
  refine tstep_nullary fun V n fr => ?_
  replace v1 := (fr _ (by decide)).trans v1; replace v2 := (fr _ (by decide)).trans v2
  have bc : rd tbc V = ReadP.val_main_call1_cst := n
  -- %call1_v0: each row's largest logit
  refine tstep_binary v1 bc fun V n fr => ?_
  replace v1 := (fr _ (by decide)).trans v1; replace v2 := (fr _ (by decide)).trans v2
  have b0 : rd tb0 V = ReadP.val_main_call1_v0 A1 A3 := n
  -- %call1_cst_0: −∞
  refine tstep_nullary fun V n fr => ?_
  replace v1 := (fr _ (by decide)).trans v1; replace v2 := (fr _ (by decide)).trans v2; replace b0 := (fr _ (by decide)).trans b0
  have bc0 : rd tbc0 V = ReadP.val_main_call1_cst_0 := n
  -- %call1_v1: −∞ in every row
  refine tstep_unary bc0 fun V n fr => ?_
  replace v1 := (fr _ (by decide)).trans v1; replace v2 := (fr _ (by decide)).trans v2; replace b0 := (fr _ (by decide)).trans b0
  have b1 : rd tb1 V = ReadP.val_main_call1_v1 := n
  -- %call1_v2: the shift: the larger of the two
  refine tstep_binary b1 b0 fun V n fr => ?_
  replace v1 := (fr _ (by decide)).trans v1; replace v2 := (fr _ (by decide)).trans v2
  have b2 : rd tb2 V = ReadP.val_main_call1_v2 A1 A3 := n
  -- %call1_v3: the shift, as a column
  refine tstep_unary b2 fun V n fr => ?_
  replace v1 := (fr _ (by decide)).trans v1; replace v2 := (fr _ (by decide)).trans v2
  have b3 : rd tb3 V = ReadP.val_main_call1_v3 A1 A3 := n
  -- %call1_v4: the shift, at every entry
  refine tstep_unary b3 fun V n fr => ?_
  replace v1 := (fr _ (by decide)).trans v1; replace v2 := (fr _ (by decide)).trans v2
  have b4 : rd tb4 V = ReadP.val_main_call1_v4 A1 A3 := n
  -- %call1_v5: the shifted logits
  refine tstep_binary v1 b4 fun V n fr => ?_
  replace v2 := (fr _ (by decide)).trans v2
  have b5 : rd tb5 V = ReadP.val_main_call1_v5 A1 A3 := n
  -- %call1_v6: their exponentials
  refine tstep_unary b5 fun V n fr => ?_
  replace v2 := (fr _ (by decide)).trans v2; replace b5 := (fr _ (by decide)).trans b5
  have b6 : rd tb6 V = ReadP.val_main_call1_v6 A1 A3 := n
  -- %call1_cst_1: zero
  refine tstep_nullary fun V n fr => ?_
  replace v2 := (fr _ (by decide)).trans v2; replace b5 := (fr _ (by decide)).trans b5; replace b6 := (fr _ (by decide)).trans b6
  have bc1 : rd tbc1 V = ReadP.val_main_call1_cst_1 := n
  -- %call1_v7: each row's sum of exponentials
  refine tstep_binary b6 bc1 fun V n fr => ?_
  replace v2 := (fr _ (by decide)).trans v2; replace b5 := (fr _ (by decide)).trans b5
  have b7 : rd tb7 V = ReadP.val_main_call1_v7 A1 A3 := n
  -- %call1_v8: the sums, as a column
  refine tstep_unary b7 fun V n fr => ?_
  replace v2 := (fr _ (by decide)).trans v2; replace b5 := (fr _ (by decide)).trans b5
  have b8 : rd tb8 V = ReadP.val_main_call1_v8 A1 A3 := n
  -- %call1_v9: their logarithms
  refine tstep_unary b8 fun V n fr => ?_
  replace v2 := (fr _ (by decide)).trans v2; replace b5 := (fr _ (by decide)).trans b5
  have b9 : rd tb9 V = ReadP.val_main_call1_v9 A1 A3 := n
  -- %call1_v10: the logarithms, at every entry
  refine tstep_unary b9 fun V n fr => ?_
  replace v2 := (fr _ (by decide)).trans v2; replace b5 := (fr _ (by decide)).trans b5
  have b10 : rd tb10 V = ReadP.val_main_call1_v10 A1 A3 := n
  -- %v3: the log-softmax
  refine tstep_binary b5 b10 fun V n fr => ?_
  replace v2 := (fr _ (by decide)).trans v2
  have v3 : rd tv3 V = ReadP.val_main_v3 A1 A3 := n
  -- back among @main's own operations
  replace v2 : V (Proc.devRef .tc main_v2) = ReadP.val_main_v2 A0 A2 := v2
  replace v3 : V (Proc.devRef .tc main_v3) = ReadP.val_main_v3 A1 A3 := v3
  -- %v4: the teacher's probabilities
  refine step_unary v3 fun V n fr => ?_
  replace v2 := (fr _ (by decide)).trans v2; replace v3 := (fr _ (by decide)).trans v3
  have v4 : V (Proc.devRef .tc main_v4) = ReadP.val_main_v4 A1 A3 := n
  -- %v5: the difference of the two log-softmaxes
  refine step_binary v3 v2 fun V n fr => ?_
  replace v4 := (fr _ (by decide)).trans v4
  have v5 : V (Proc.devRef .tc main_v5) = ReadP.val_main_v5 A0 A1 A2 A3 := n
  -- %v6: each entry's term
  refine step_binary v4 v5 fun V n fr => ?_
  have v6 : V (Proc.devRef .tc main_v6) = ReadP.val_main_v6 A0 A1 A2 A3 := n
  -- %cst: zero
  refine step_nullary fun V n fr => ?_
  replace v6 := (fr _ (by decide)).trans v6
  have k : V (Proc.devRef .tc main_cst) = ReadP.val_main_cst := n
  -- %v7: the sum of all terms
  refine step_binary v6 k fun V n fr => ?_
  have v7 : V (Proc.devRef .tc main_v7) = ReadP.val_main_v7 A0 A1 A2 A3 := n
  -- %cst_0: 2048
  refine step_nullary fun V n fr => ?_
  replace v7 := (fr _ (by decide)).trans v7
  have k0 : V (Proc.devRef .tc main_cst_0) = ReadP.val_main_cst_0 := n
  -- %v8: the mean over rows
  refine step_binary v7 k0 fun V n fr => ?_
  have v8 : V (Proc.devRef .tc main_v8) = ReadP.val_main_v8 A0 A1 A2 A3 := n
  exact v8

set_option maxHeartbeats 2000000 in
/-- On every device, for any float values, from any memory with zero counters: every weakly fair execution of
    @main terminates with the result at the reference's last stage read from the arguments' launch contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = Cert.ReferenceIdeal.ReadP.val_main_v8 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v8).trans (after_ops (launchContents m c) _ _ _ _ rfl rfl rfl rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunP

end
-- ==== Proof.KLMath.lean ====
/-
  The fused KL-divergence loss: the tiled running computation equals the reference's row loss, for a row of real logits.

  Write  Z f = Σ_v e^{f v}  for a row  f  of real numbers. Two facts carry the whole proof.

  (1) A shifted log-softmax does not depend on its shift:  (f v − c) − log Σ_w e^{f w − c} = f v − log (Z f),  since
      Σ_w e^{f w − c} = e^{−c} · Z f  and  Z f > 0.  Hence the reference's row loss is
      Σ_v (e^{t v} / Z t) · ((t v − log Z t) − (s v − log Z s)).
  (2) Whatever real numbers the running shifts are, after the first n positions the running sums are the plain sums
      scaled by e^{−shift}:  ls = e^{−m} Σ_{v<n} e^{s v},  lt = e^{−m'} Σ_{v<n} e^{t v},  a1 = e^{−m'} Σ_{v<n} e^{t v} t v,
      a2 = e^{−m'} Σ_{v<n} e^{t v} s v.  A tile with new shift M turns  e^{−m} P  into
      e^{m − M} · (e^{−m} P) + Σ_b e^{y b − M} w b = e^{−M} (P + Σ_b e^{y b} w b).  The first tile starts from shift −∞ and
      nothing accumulated, where e^{−∞} = 0 leaves just the tile's own sum.

  In the read-out the factors e^{−m'} cancel in the quotient and  m + log (e^{−m} Z) = log Z,  which gives
  (N1 − N2) / Z t + (log Z s − log Z t);  and (1) sums to the same number because  Σ_v e^{t v} / Z t = 1.
-/
import proofs.«176191_j14577119003196_1_alg».proof.Proof.KLSpec
import Mathlib.Data.Fintype.BigOperators
import Mathlib.Algebra.BigOperators.Fin
import Mathlib.Analysis.SpecialFunctions.Log.Basic
import Mathlib.Tactic.FieldSimp
import Mathlib.Tactic.Ring
import Mathlib.Tactic.Positivity
import Mathlib.Tactic.Linarith

noncomputable section

namespace KL

open Idealize.ShloMosaic

/-! ## Coercions of finite sums and maxima -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum from −∞ over finitely many reals is −∞ (over no entries) or a real. -/
theorem fold_max_coe {ι : Type*} (s : Finset ι) (f : ι → ℝ) :
    (s = ∅ ∧ s.fold max (⊥ : EReal) (fun i => (f i : EReal)) = ⊥)
      ∨ ∃ m : ℝ, s.fold max (⊥ : EReal) (fun i => (f i : EReal)) = (m : EReal) := by
  classical
  induction s using Finset.induction_on with
  | empty => left; exact ⟨rfl, Finset.fold_empty⟩
  | insert a s ha ih =>
    right
    rw [Finset.fold_insert ha]
    rcases ih with ⟨-, h⟩ | ⟨m, h⟩
    · exact ⟨f a, by rw [h]; exact max_eq_left bot_le⟩
    · exact ⟨max (f a) m, by rw [h]; exact (EReal.coe_strictMono.monotone.map_max).symm⟩

/-- The largest entry of a nonempty tile of reals is a real. -/
theorem cmax_coe {B : ℕ} (hB : 0 < B) (f : Fin B → ℝ) :
    ∃ c : ℝ, cmax (fun b => (f b : EReal)) = (c : EReal) := by
  rcases fold_max_coe (Finset.univ : Finset (Fin B)) f with ⟨h, -⟩ | h
  · exact absurd h (Finset.univ_nonempty_iff.mpr ⟨⟨0, hB⟩⟩).ne_empty
  · exact h

/-- The maximum of −∞ or a real with a real is a real. -/
theorem max_coe_real (x : EReal) (c : ℝ) (hx : x = ⊥ ∨ ∃ m : ℝ, x = (m : EReal)) :
    ∃ M : ℝ, max x (c : EReal) = (M : EReal) := by
  rcases hx with rfl | ⟨m, rfl⟩
  · exact ⟨c, max_eq_right bot_le⟩
  · exact ⟨max m c, (EReal.coe_strictMono.monotone.map_max).symm⟩

/-! ## One accumulated sum through one tile -/

/-- Before the tile the shift is −∞ with nothing accumulated, or a real m with e^{−m}·P accumulated; after the tile,
    under the new shift M, the accumulated value is e^{−M}·(P + Σ_b e^{y b}·w b). -/
theorem acc_step {B : ℕ} (mold acc : EReal) (P M : ℝ) (y w : Fin B → ℝ)
    (h : (mold = ⊥ ∧ acc = 0 ∧ P = 0) ∨ ∃ m : ℝ, mold = (m : EReal) ∧ acc = ((Real.exp (-m) * P : ℝ) : EReal)) :
    Ideal.exp (mold - (M : EReal)) * acc + ∑ b, Ideal.exp ((y b : EReal) - (M : EReal)) * (w b : EReal)
      = ((Real.exp (-M) * (P + ∑ b, Real.exp (y b) * w b) : ℝ) : EReal) := by
  have e2 : ∀ b, Real.exp (y b - M) * w b = Real.exp (-M) * (Real.exp (y b) * w b) := fun b => by
    rw [← mul_assoc, ← Real.exp_add]; congr 2; ring
  have hsum : ∑ b, Ideal.exp ((y b : EReal) - (M : EReal)) * (w b : EReal)
      = ((Real.exp (-M) * ∑ b, Real.exp (y b) * w b : ℝ) : EReal) := by
    rw [Finset.mul_sum, coe_sum]
    refine Finset.sum_congr rfl fun b _ => ?_
    rw [← EReal.coe_sub, Ideal.exp_coe, ← EReal.coe_mul, e2 b]
  rw [hsum]
  rcases h with ⟨rfl, rfl, rfl⟩ | ⟨m, rfl, rfl⟩
  · rw [EReal.bot_sub, Ideal.exp_bot, mul_zero, zero_add, zero_add]
  · have e1 : Real.exp (m - M) * Real.exp (-m) = Real.exp (-M) := by
      rw [← Real.exp_add]; congr 1; ring
    rw [← EReal.coe_sub, Ideal.exp_coe, ← EReal.coe_mul, ← EReal.coe_add, ← mul_assoc, e1, mul_add]

/-- The same for a plain exponential sum (every weight 1). -/
theorem acc_step_one {B : ℕ} (mold acc : EReal) (P M : ℝ) (y : Fin B → ℝ)
    (h : (mold = ⊥ ∧ acc = 0 ∧ P = 0) ∨ ∃ m : ℝ, mold = (m : EReal) ∧ acc = ((Real.exp (-m) * P : ℝ) : EReal)) :
    Ideal.exp (mold - (M : EReal)) * acc + ∑ b, Ideal.exp ((y b : EReal) - (M : EReal))
      = ((Real.exp (-M) * (P + ∑ b, Real.exp (y b)) : ℝ) : EReal) := by
  have := acc_step mold acc P M y (fun _ => 1) h
  simpa only [EReal.coe_one, mul_one] using this

/-! ## The six running numbers after the first n positions of a real row -/

/-- The running numbers after the first n positions, under real shifts m (student) and m' (teacher): every running sum
    is the plain sum over those positions scaled by e^{−shift}. -/
def Inv (sr tr : ℕ → ℝ) (n : ℕ) (m m' : ℝ) (σ : St) : Prop :=
  σ.ms = (m : EReal) ∧ σ.mt = (m' : EReal)
  ∧ σ.ls = ((Real.exp (-m) * ∑ v ∈ Finset.range n, Real.exp (sr v) : ℝ) : EReal)
  ∧ σ.lt = ((Real.exp (-m') * ∑ v ∈ Finset.range n, Real.exp (tr v) : ℝ) : EReal)
  ∧ σ.a1 = ((Real.exp (-m') * ∑ v ∈ Finset.range n, Real.exp (tr v) * tr v : ℝ) : EReal)
  ∧ σ.a2 = ((Real.exp (-m') * ∑ v ∈ Finset.range n, Real.exp (tr v) * sr v : ℝ) : EReal)

/-- A sum over the first n + B positions splits into the first n and a tile of B places. -/
theorem sum_range_add_tile (g : ℕ → ℝ) (n B : ℕ) :
    ∑ v ∈ Finset.range (n + B), g v = ∑ v ∈ Finset.range n, g v + ∑ b : Fin B, g (n + b.val) := by
  rw [Finset.sum_range_add, Finset.sum_range (fun x => g (n + x))]

/-- Visiting the tile of positions n, …, n + B − 1: from the initial numbers (n = 0) or from the numbers after the first
    n positions, to the numbers after the first n + B positions. -/
theorem step_inv {B : ℕ} (hB : 0 < B) (sr tr : ℕ → ℝ) (n : ℕ) (σ : St)
    (h : (σ = St.init ∧ n = 0) ∨ ∃ m m' : ℝ, Inv sr tr n m m' σ) :
    ∃ m m' : ℝ, Inv sr tr (n + B) m m'
      (σ.step (fun b : Fin B => ((sr (n + b.val) : ℝ) : EReal)) (fun b : Fin B => ((tr (n + b.val) : ℝ) : EReal))) := by
  obtain ⟨cz, hcz⟩ := cmax_coe hB (fun b : Fin B => sr (n + b.val))
  obtain ⟨cy, hcy⟩ := cmax_coe hB (fun b : Fin B => tr (n + b.val))
  -- what was accumulated so far, in the form the one-sum step wants
  have hls : (σ.ms = ⊥ ∧ σ.ls = 0 ∧ (∑ v ∈ Finset.range n, Real.exp (sr v)) = 0)
      ∨ ∃ m : ℝ, σ.ms = (m : EReal) ∧ σ.ls = ((Real.exp (-m) * ∑ v ∈ Finset.range n, Real.exp (sr v) : ℝ) : EReal) := by
    rcases h with ⟨rfl, rfl⟩ | ⟨m, m', h1, -, h3, -⟩
    · exact Or.inl ⟨rfl, rfl, Finset.sum_range_zero _⟩
    · exact Or.inr ⟨m, h1, h3⟩
  have hlt : (σ.mt = ⊥ ∧ σ.lt = 0 ∧ (∑ v ∈ Finset.range n, Real.exp (tr v)) = 0)
      ∨ ∃ m : ℝ, σ.mt = (m : EReal) ∧ σ.lt = ((Real.exp (-m) * ∑ v ∈ Finset.range n, Real.exp (tr v) : ℝ) : EReal) := by
    rcases h with ⟨rfl, rfl⟩ | ⟨m, m', -, h2, -, h4, -⟩
    · exact Or.inl ⟨rfl, rfl, Finset.sum_range_zero _⟩
    · exact Or.inr ⟨m', h2, h4⟩
  have ha1 : (σ.mt = ⊥ ∧ σ.a1 = 0 ∧ (∑ v ∈ Finset.range n, Real.exp (tr v) * tr v) = 0)
      ∨ ∃ m : ℝ, σ.mt = (m : EReal) ∧ σ.a1 = ((Real.exp (-m) * ∑ v ∈ Finset.range n, Real.exp (tr v) * tr v : ℝ) : EReal) := by
    rcases h with ⟨rfl, rfl⟩ | ⟨m, m', -, h2, -, -, h5, -⟩
    · exact Or.inl ⟨rfl, rfl, Finset.sum_range_zero _⟩
    · exact Or.inr ⟨m', h2, h5⟩
  have ha2 : (σ.mt = ⊥ ∧ σ.a2 = 0 ∧ (∑ v ∈ Finset.range n, Real.exp (tr v) * sr v) = 0)
      ∨ ∃ m : ℝ, σ.mt = (m : EReal) ∧ σ.a2 = ((Real.exp (-m) * ∑ v ∈ Finset.range n, Real.exp (tr v) * sr v : ℝ) : EReal) := by
    rcases h with ⟨rfl, rfl⟩ | ⟨m, m', -, h2, -, -, -, h6⟩
    · exact Or.inl ⟨rfl, rfl, Finset.sum_range_zero _⟩
    · exact Or.inr ⟨m', h2, h6⟩
  -- the two new shifts are reals
  obtain ⟨M, hM⟩ := max_coe_real σ.ms cz (hls.imp (fun h => h.1) (fun ⟨m, h, _⟩ => ⟨m, h⟩))
  obtain ⟨M', hM'⟩ := max_coe_real σ.mt cy (hlt.imp (fun h => h.1) (fun ⟨m, h, _⟩ => ⟨m, h⟩))
  refine ⟨M, M', ?_, ?_, ?_, ?_, ?_, ?_⟩
  · show max σ.ms (cmax _) = _
    rw [hcz, hM]
  · show max σ.mt (cmax _) = _
    rw [hcy, hM']
  · show Ideal.exp (σ.ms - max σ.ms (cmax _)) * σ.ls + ∑ b, Ideal.exp (_ - max σ.ms (cmax _)) = _
    rw [hcz, hM, sum_range_add_tile]
    exact acc_step_one σ.ms σ.ls _ M (fun b : Fin B => sr (n + b.val)) hls
  · show Ideal.exp (σ.mt - max σ.mt (cmax _)) * σ.lt + ∑ b, Ideal.exp (_ - max σ.mt (cmax _)) = _
    rw [hcy, hM', sum_range_add_tile]
    exact acc_step_one σ.mt σ.lt _ M' (fun b : Fin B => tr (n + b.val)) hlt
  · show Ideal.exp (σ.mt - max σ.mt (cmax _)) * σ.a1 + ∑ b, Ideal.exp (_ - max σ.mt (cmax _)) * _ = _
    rw [hcy, hM', sum_range_add_tile]
    exact acc_step σ.mt σ.a1 _ M' (fun b : Fin B => tr (n + b.val)) (fun b : Fin B => tr (n + b.val)) ha1
  · show Ideal.exp (σ.mt - max σ.mt (cmax _)) * σ.a2 + ∑ b, Ideal.exp (_ - max σ.mt (cmax _)) * _ = _
    rw [hcy, hM', sum_range_add_tile]
    exact acc_step σ.mt σ.a2 _ M' (fun b : Fin B => tr (n + b.val)) (fun b : Fin B => sr (n + b.val)) ha2

/-- After tile j the running numbers are those of the first B·(j + 1) positions. -/
theorem run_inv {B : ℕ} (hB : 0 < B) (sr tr : ℕ → ℝ) (j : ℕ) :
    ∃ m m' : ℝ, Inv sr tr (B * (j + 1)) m m'
      (run (fun j (b : Fin B) => ((sr (B * j + b.val) : ℝ) : EReal))
        (fun j (b : Fin B) => ((tr (B * j + b.val) : ℝ) : EReal)) j) := by
  induction j with
  | zero =>
    have h := step_inv hB sr tr 0 St.init (Or.inl ⟨rfl, rfl⟩)
    simp only [Nat.zero_add] at h
    simp only [run, Nat.mul_zero, Nat.zero_add, Nat.mul_one]
    exact h
  | succ j ih =>
    have h := step_inv hB sr tr (B * (j + 1)) _ (Or.inr ih)
    have e : B * (j + 1 + 1) = B * (j + 1) + B := by ring
    rw [e]
    exact h

/-! ## The read-out -/

/-- From the running numbers after the first n > 0 positions, the row's loss: the factors e^{−m'} cancel in the
    quotient, and  m + log (e^{−m}·Z) = log Z. -/
theorem out_of_inv (sr tr : ℕ → ℝ) (n : ℕ) (hn : 0 < n) (m m' : ℝ) (σ : St) (h : Inv sr tr n m m' σ) :
    σ.out = (((∑ v ∈ Finset.range n, Real.exp (tr v) * tr v - ∑ v ∈ Finset.range n, Real.exp (tr v) * sr v)
        / (∑ v ∈ Finset.range n, Real.exp (tr v))
      + (Real.log (∑ v ∈ Finset.range n, Real.exp (sr v)) - Real.log (∑ v ∈ Finset.range n, Real.exp (tr v))) : ℝ) : EReal) := by
  obtain ⟨h1, h2, h3, h4, h5, h6⟩ := h
  have hne : (Finset.range n).Nonempty := Finset.nonempty_range_iff.mpr hn.ne'
  have hZs : 0 < ∑ v ∈ Finset.range n, Real.exp (sr v) := Finset.sum_pos (fun v _ => Real.exp_pos _) hne
  have hZt : 0 < ∑ v ∈ Finset.range n, Real.exp (tr v) := Finset.sum_pos (fun v _ => Real.exp_pos _) hne
  have hls : 0 < Real.exp (-m) * ∑ v ∈ Finset.range n, Real.exp (sr v) := mul_pos (Real.exp_pos _) hZs
  have hlt : 0 < Real.exp (-m') * ∑ v ∈ Finset.range n, Real.exp (tr v) := mul_pos (Real.exp_pos _) hZt
  unfold St.out
  rw [h1, h2, h3, h4, h5, h6, ← EReal.coe_sub, Ideal.div_coe hlt.ne', ← EReal.coe_mul, Ideal.log_coe, Ideal.log_coe,
    if_neg (not_le.mpr hls), if_neg (not_le.mpr hlt), ← EReal.coe_add, ← EReal.coe_add, ← EReal.coe_sub,
    ← EReal.coe_add, Real.log_mul (Real.exp_pos _).ne' hZs.ne', Real.log_mul (Real.exp_pos _).ne' hZt.ne',
    Real.log_exp, Real.log_exp]
  congr 1
  have hE : Real.exp (-m') ≠ 0 := (Real.exp_pos _).ne'
  have hZ : (∑ v ∈ Finset.range n, Real.exp (tr v)) ≠ 0 := hZt.ne'
  field_simp
  ring

/-! ## The reference -/

/-- A shifted log-softmax of a real row does not depend on the shift. -/
theorem lsm_coe {V : ℕ} (hV : 0 < V) (c : ℝ) (f : Fin V → ℝ) (v : Fin V) :
    lsm (c : EReal) (fun w => (f w : EReal)) v = ((f v - Real.log (∑ w, Real.exp (f w)) : ℝ) : EReal) := by
  haveI : Nonempty (Fin V) := ⟨⟨0, hV⟩⟩
  have hZ : 0 < ∑ w, Real.exp (f w) := Finset.sum_pos (fun w _ => Real.exp_pos _) Finset.univ_nonempty
  have hs : ∑ w, Ideal.exp ((f w : EReal) - (c : EReal)) = ((Real.exp (-c) * ∑ w, Real.exp (f w) : ℝ) : EReal) := by
    rw [Finset.mul_sum, coe_sum]
    refine Finset.sum_congr rfl fun w _ => ?_
    rw [← EReal.coe_sub, Ideal.exp_coe, ← Real.exp_add]
    congr 2; ring
  show ((f v : EReal) - (c : EReal)) - Ideal.log (∑ w, Ideal.exp ((f w : EReal) - (c : EReal))) = _
  rw [hs, Ideal.log_coe, if_neg (not_le.mpr (mul_pos (Real.exp_pos _) hZ)), ← EReal.coe_sub, ← EReal.coe_sub,
    Real.log_mul (Real.exp_pos _).ne' hZ.ne', Real.log_exp]
  congr 1; ring

/-- The reference's row loss of two real rows, as a real number free of the shifts. -/
theorem refRow_coe {V : ℕ} (hV : 0 < V) (cs ct : ℝ) (f g : Fin V → ℝ) :
    refRow (cs : EReal) (ct : EReal) (fun v => (f v : EReal)) (fun v => (g v : EReal))
      = ((∑ v, Real.exp (g v - Real.log (∑ w, Real.exp (g w)))
            * ((g v - Real.log (∑ w, Real.exp (g w))) - (f v - Real.log (∑ w, Real.exp (f w)))) : ℝ) : EReal) := by
  unfold refRow
  rw [coe_sum]
  refine Finset.sum_congr rfl fun v _ => ?_
  rw [lsm_coe hV, lsm_coe hV, Ideal.exp_coe, ← EReal.coe_sub, ← EReal.coe_mul]

/-- The sum of the reference: since  Σ_v e^{g v} / Z g = 1,  the constant  log Z f − log Z g  comes out whole. -/
theorem real_identity {V : ℕ} (hV : 0 < V) (f g : Fin V → ℝ) :
    ∑ v, Real.exp (g v - Real.log (∑ w, Real.exp (g w)))
        * ((g v - Real.log (∑ w, Real.exp (g w))) - (f v - Real.log (∑ w, Real.exp (f w))))
      = ((∑ v, Real.exp (g v) * g v) - ∑ v, Real.exp (g v) * f v) / (∑ w, Real.exp (g w))
        + (Real.log (∑ w, Real.exp (f w)) - Real.log (∑ w, Real.exp (g w))) := by
  haveI : Nonempty (Fin V) := ⟨⟨0, hV⟩⟩
  have hZ : 0 < ∑ w, Real.exp (g w) := Finset.sum_pos (fun w _ => Real.exp_pos _) Finset.univ_nonempty
  generalize hZg : ∑ w, Real.exp (g w) = Zg at hZ ⊢
  generalize Real.log (∑ w, Real.exp (f w)) = lf
  have e : ∀ v, Real.exp (g v - Real.log Zg) * ((g v - Real.log Zg) - (f v - lf))
      = (Real.exp (g v) * g v - Real.exp (g v) * f v) / Zg + Real.exp (g v) * ((lf - Real.log Zg) / Zg) := fun v => by
    rw [Real.exp_sub, Real.exp_log hZ]; ring
  rw [Finset.sum_congr rfl (fun v _ => e v), Finset.sum_add_distrib, ← Finset.sum_div, Finset.sum_sub_distrib,
    ← Finset.sum_mul, hZg, mul_div_cancel₀ _ hZ.ne']

/-! ## The theorem -/

/-- For a row of real student logits sr and teacher logits tr, position v = B·j + b in tile j at place b, the running
    numbers after tile J, read out, are the reference's row loss over the V = (J + 1)·B positions, whatever real shifts
    the reference uses. -/
theorem run_out_eq_refRow {B V : ℕ} (hB : 0 < B) (J : ℕ) (hV : V = (J + 1) * B) (sr tr : ℕ → ℝ) (cs ct : ℝ) :
    (KL.run (fun j (b : Fin B) => ((sr (B * j + b.val) : ℝ) : EReal)) (fun j (b : Fin B) => ((tr (B * j + b.val) : ℝ) : EReal)) J).out
      = KL.refRow (cs : EReal) (ct : EReal) (fun v : Fin V => ((sr v.val : ℝ) : EReal)) (fun v : Fin V => ((tr v.val : ℝ) : EReal)) := by
  have hVpos : 0 < V := by rw [hV]; exact Nat.mul_pos (Nat.succ_pos J) hB
  obtain ⟨m, m', hinv⟩ := run_inv hB sr tr J
  have hn : B * (J + 1) = V := by rw [hV, Nat.mul_comm]
  rw [hn] at hinv
  rw [out_of_inv sr tr V hVpos m m' _ hinv, refRow_coe hVpos cs ct (fun v : Fin V => sr v.val) (fun v : Fin V => tr v.val),
    real_identity hVpos]
  simp only [Finset.sum_range]

end KL

end
-- ==== Proof.FinPre.lean ====
/-
  From the certificate's precondition to real inputs, and real logits.

  The precondition says of each of the four input arrays that every entry x has |x| < +∞, all four facts joined by "and":
  it is printed as a conjunction of four reductions by "and" over the comparisons  |x| < 0x7F800000.  That pattern is +∞,
  |x| is  max x (−x),  and an extended real with  max x (−x) < +∞  is neither −∞ nor +∞: it is a real number.

  A logit is a finite sum of products of entries; of real entries it is a real number.
-/
import proofs.«176191_j14577119003196_1_alg».proof.Defs
import proofs.«176191_j14577119003196_1_alg».proof.Proof.KLSpec
import Idealize.ShloMosaic.Lib.ReduceAll

noncomputable section

namespace Cert.FinPre

open Idealize.ShloMosaic Idealize.SL.Sem

/-- The pattern 0x7F800000 (sign 0, exponent all ones, significand 0) is +∞. -/
theorem inf_pattern : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a truth value is 1 exactly when the value is true. -/
theorem ofBool_eq_one (b : Bool) : BitVec.ofBool b = 1#1 ↔ b = true := by cases b <;> decide

/-- The shape with no axes has one index. -/
instance : Subsingleton Cert.Pre_finite_inputs.S_.Idx := ⟨fun a b => funext fun d => d.elim0⟩

/-- One entry's comparison  |x i| < +∞  (the bound broadcast from a scalar) being 1 makes the entry a real number. -/
theorem real_of_cmp {s : Shape} (x : FVec Ideal s .f32)
    (hb : Cert.Pre_finite_inputs.S_.BroadcastsInDim s (![] : Fin 0 → Fin s.rank)) (i : s.Idx)
    (hi : cmpf CmpFPredicate.olt (Host.absf x)
        (broadcastInDim s ![] hb (constant Cert.Pre_finite_inputs.S_ FTy.f32 0x7F800000#32)) i = 1#1) :
    ∃ r : ℝ, x i = (r : EReal) := by
  apply real_of_abs_lt_top
  simp only [cmpf, Host.absf, broadcastInDim, constant] at hi
  have hi' : BitVec.ofBool (decide (max (x i) (-x i) < Ideal.ofBits .f32 0x7F800000#32)) = 1#1 := hi
  have hlt := of_decide_eq_true ((ofBool_eq_one _).1 hi')
  rwa [inf_pattern] at hlt

/-- Under the precondition every entry of each of the four input arrays is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have e := congrFun (h c) ValueIdx.ix0
  dsimp only [Cert.Pre_finite_inputs.fn, Cert.Pre_finite_inputs.fn_part1] at e
  -- the conjunction of the four reductions, split
  simp only [andi, IntOp.andi_eq_one] at e
  obtain ⟨⟨⟨e0, e1⟩, e2⟩, e3⟩ := e
  -- each reduction by "and" that is 1 had a 1 at every entry
  refine ⟨fun i => ?_, fun i => ?_, fun i => ?_, fun i => ?_⟩
  · exact real_of_cmp _ _ i (Host.reduce_andi_all _ _ _ _ _ e0 i)
  · exact real_of_cmp _ _ i (Host.reduce_andi_all _ _ _ _ _ e1 i)
  · exact real_of_cmp _ _ i (Host.reduce_andi_all _ _ _ _ _ e2 i)
  · exact real_of_cmp _ _ i (Host.reduce_andi_all _ _ _ _ _ e3 i)

end Cert.FinPre

namespace KL

/-- The coercion of a finite sum of reals is the sum of the coercions. -/
private theorem coe_finset_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- A logit of real activations against real weights is a real number: a finite sum of products of reals. -/
theorem logit_real (X : KL.SX.Idx → EReal) (W : KL.SW.Idx → EReal) (hX : ∀ i, ∃ r : ℝ, X i = (r : EReal)) (hW : ∀ i, ∃ r : ℝ, W i = (r : EReal)) (n v : ℕ) :
    ∃ r : ℝ, KL.logit X W n v = (r : EReal) := by
  choose fX hfX using hX
  choose fW hfW using hW
  unfold KL.logit
  simp only [hfX, hfW, ← EReal.coe_mul, coe_finset_sum]
  exact ⟨_, rfl⟩

end KL

end
-- ==== Proof.Bridge.lean ====
/-
  The two programs' results are one number.

  Under the precondition every input entry is a real number, hence every logit is (a finite sum of products of reals), and so
  is each of the reference's two shifts (a maximum over a nonempty row of reals). For a row of real logits the kernel's
  running computation, read out after the last tile, equals the reference's row loss whatever the real shifts
  (Proof/KLMath.lean: a shifted log-softmax does not depend on its shift, and the running sums are the plain sums scaled by
  e^{−shift}). The rows agreeing, so do the sums over the rows and their quotients by 2048.

  The frames: the kernel's two are the generated ones; the reference's is its run with the result dropped. The ideal pass
  rewrote nothing, so there is nothing to preserve.
-/
import proofs.«176191_j14577119003196_1_alg».proof.Defs
import proofs.«176191_j14577119003196_1_alg».proof.Proof.Gen.Kernel.Frame
import proofs.«176191_j14577119003196_1_alg».proof.Proof.Gen.Pre_finite_inputs
import proofs.«176191_j14577119003196_1_alg».proof.Proof.KValue
import proofs.«176191_j14577119003196_1_alg».proof.Proof.RefValue
import proofs.«176191_j14577119003196_1_alg».proof.Proof.RefRun
import proofs.«176191_j14577119003196_1_alg».proof.Proof.KLMath
import proofs.«176191_j14577119003196_1_alg».proof.Proof.FinPre

noncomputable section

open Idealize.ShloMosaic Idealize.ShloMosaic.TcCoe Idealize.SL.Sem Idealize.ShloMosaic.ValueIdx

namespace Cert.Proof.KLClaims

open Cert.ReferenceIdeal.RefValue (shift)

/-- Under the precondition, the kernel's loss of a row is the reference's. -/
theorem rows_agree (m : (ℓ : Loc Cert.KernelIdeal.nD Cert.KernelIdeal.τ Cert.KernelIdeal.sig) → Buf (Elt Ideal) ℓ)
    (hpre : Cert.Pre_KernelIdeal m) (c : Dev Cert.KernelIdeal.nD) (n : Fin 2048) :
    Cert.KernelIdeal.KValue.rowLoss m c n.val
      = KL.refRowAt
          (shift (m ((c.tc : Thread Cert.KernelIdeal.nD Cert.KernelIdeal.τ).loc Cert.KernelIdeal.main_arg0)) (m ((c.tc : Thread Cert.KernelIdeal.nD Cert.KernelIdeal.τ).loc Cert.KernelIdeal.main_arg2)) n)
          (shift (m ((c.tc : Thread Cert.KernelIdeal.nD Cert.KernelIdeal.τ).loc Cert.KernelIdeal.main_arg1)) (m ((c.tc : Thread Cert.KernelIdeal.nD Cert.KernelIdeal.τ).loc Cert.KernelIdeal.main_arg3)) n)
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) n.val := by
  obtain ⟨hX, hTX, hW, hTW⟩ := Cert.FinPre.real_of_pre m hpre c
  choose sr hsr using fun v => KL.logit_real _ _ hX hW n.val v
  choose tr htr using fun v => KL.logit_real _ _ hTX hTW n.val v
  obtain ⟨cs, hcs⟩ := Cert.ReferenceIdeal.RefValue.shift_real _ _ n (fun v => ⟨sr v, hsr v⟩)
  obtain ⟨ct, hct⟩ := Cert.ReferenceIdeal.RefValue.shift_real _ _ n (fun v => ⟨tr v, htr v⟩)
  unfold Cert.KernelIdeal.KValue.rowLoss KL.kerRow KL.refRowAt
  rw [hcs, hct]
  simp only [hsr, htr]
  exact KL.run_out_eq_refRow (by norm_num) 124 (by norm_num) sr tr cs ct

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- At the ideal values the kernel's result is the rows' losses added to zero and divided by 2048, the reference's the
    same of its own rows' losses, of arguments that agree; the rows agree. -/
theorem algebraic : Cert.algebraic_KernelIdeal_ReferenceIdeal := by
  intro m ρ m' ρ' hpre hagree
  refine ⟨fun c => fun _ => KL.resultOf (fun n : Fin 2048 => Cert.KernelIdeal.KValue.rowLoss m c n.val),
    Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2.1, (hagree c).2.2.2]
  funext i
  rw [Cert.ReferenceIdeal.RefValue.ref_eq]
  exact congrArg KL.resultOf (funext fun n => (rows_agree m hpre c n).symm)

end Cert.Proof.KLClaims

end
-- ==== Proof.lean ====
/- The certificate of the fused KL-divergence loss kernel against its jnp reference: the kernel visits each row's
   32000 logits in 125 tiles, carrying a running shift and shifted exponential sums for student and teacher and two
   teacher-weighted sums, and reads the row's loss out of them after the last tile; the reference takes two whole-row
   log-softmaxes. For finite inputs the two agree row by row (Proof/KLMath.lean), hence in the mean over the rows.
   Proof/KLSpec.lean states both computations; Proof/KCases.lean, KRowRead.lean, KTiles.lean, KRows.lean and KValue.lean
   read the kernel's run as the specification's; Proof/RefRead.lean, RefRun.lean and RefValue.lean the reference's;
   Proof/FinPre.lean turns the precondition into real entries; Proof/Bridge.lean joins them and states the five claims. -/
import proofs.«176191_j14577119003196_1_alg».proof.Defs
import proofs.«176191_j14577119003196_1_alg».proof.Proof.Gen.Kernel
import proofs.«176191_j14577119003196_1_alg».proof.Proof.Gen.Kernel.Skeleton
import proofs.«176191_j14577119003196_1_alg».proof.Proof.Gen.Kernel.Launch
import proofs.«176191_j14577119003196_1_alg».proof.Proof.Gen.Kernel.Points
import proofs.«176191_j14577119003196_1_alg».proof.Proof.Gen.Kernel.Frame
import proofs.«176191_j14577119003196_1_alg».proof.Proof.Gen.KernelIdeal
import proofs.«176191_j14577119003196_1_alg».proof.Proof.Gen.KernelIdeal.Skeleton
import proofs.«176191_j14577119003196_1_alg».proof.Proof.Gen.KernelIdeal.Launch
import proofs.«176191_j14577119003196_1_alg».proof.Proof.Gen.KernelIdeal.Points
import proofs.«176191_j14577119003196_1_alg».proof.Proof.Gen.KernelIdeal.Frame
import proofs.«176191_j14577119003196_1_alg».proof.Proof.Gen.ReferenceIdeal
import proofs.«176191_j14577119003196_1_alg».proof.Proof.Gen.Pre_finite_inputs
import proofs.«176191_j14577119003196_1_alg».proof.Proof.Bridge
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    KLClaims.frame_k, KLClaims.frame_ki, KLClaims.frame_ri, KLClaims.preserves, KLClaims.algebraic⟩

end Cert.Proof

end
